-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_0)) (v2 : (c : Dev Cert.KernelIdeal.nD) → Buf (Elt Ideal) ((c.tc : Thread Cert.KernelIdeal.nD Cert.KernelIdeal.τ).loc Cert.KernelIdeal.main_v20_1)) (v3 : (c : Dev Cert.KernelIdeal.nD) → Buf (Elt Ideal) ((c.tc : Thread Cert.KernelIdeal.nD Cert.KernelIdeal.τ).loc Cert.KernelIdeal.main_v20_2)) (v4 : (c : Dev Cert.KernelIdeal.nD) → Buf (Elt Ideal) ((c.tc : Thread Cert.KernelIdeal.nD Cert.KernelIdeal.τ).loc Cert.KernelIdeal.main_v20_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_0) = v1 c
          ∧ r.2.mem ((c.tc : Thread Cert.KernelIdeal.nD Cert.KernelIdeal.τ).loc Cert.KernelIdeal.main_v20_1) = v2 c
          ∧ r.2.mem ((c.tc : Thread Cert.KernelIdeal.nD Cert.KernelIdeal.τ).loc Cert.KernelIdeal.main_v20_2) = v3 c
          ∧ r.2.mem ((c.tc : Thread Cert.KernelIdeal.nD Cert.KernelIdeal.τ).loc Cert.KernelIdeal.main_v20_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_v49) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_arg15 : FVec F S1024 .f32) (main_arg16 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_v48 main_v49 main_v50

def fn_part1 {F : FTy → Type} [FloatOps F] (main_arg4 : FVec F S8192x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S1024x256 : Shape := ⟨2, ![1024, 256]⟩
abbrev S1x256 : Shape := ⟨2, ![1, 256]⟩

abbrev nBuf : Space → Nat
  | .hbm => 41
  | .vmem => 42
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .bf16⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S512x256, .f32⟩
  | .local _ .vmem, ⟨35, _⟩ => ⟨S512x256, .f32⟩
  | .local _ .vmem, ⟨36, _⟩ => ⟨S512x256, .f32⟩
  | .local _ .vmem, ⟨37, _⟩ => ⟨S512x256, .f32⟩
  | .local _ .vmem, ⟨38, _⟩ => ⟨S512x256, .f32⟩
  | .local _ .vmem, ⟨39, _⟩ => ⟨S512x256, .f32⟩
  | .local _ .vmem, ⟨40, _⟩ => ⟨S512x256, .f32⟩
  | .local _ .vmem, ⟨41, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev main_v20_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x1024.size a
  hwx0_2 : ∀ i : grid0.Coords, EltTy.bits .f32 = 32 ∨ (Rect.block (s := S8192x1024) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x1024.size a
  hwx0_3 : ∀ i : grid0.Coords, EltTy.bits .f32 = 32 ∨ (Rect.block (s := S8192x1024) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x1024.size a
  hwx0_4 : ∀ i : grid0.Coords, EltTy.bits .f32 = 32 ∨ (Rect.block (s := S8192x1024) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S1024x1024.size a
  hwx0_5 : ∀ i : grid0.Coords, EltTy.bits .bf16 = 32 ∨ (Rect.block (s := S1024x1024) S1024x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S1024x1024.size a
  hwx0_6 : ∀ i : grid0.Coords, EltTy.bits .bf16 = 32 ∨ (Rect.block (s := S1024x1024) S1024x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S1024x1024.size a
  hwx0_7 : ∀ i : grid0.Coords, EltTy.bits .bf16 = 32 ∨ (Rect.block (s := S1024x1024) S1024x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S1024x1024.size a
  hwx0_8 : ∀ i : grid0.Coords, EltTy.bits .bf16 = 32 ∨ (Rect.block (s := S1024x1024) S1024x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S1024x1024.size a
  hwx0_9 : ∀ i : grid0.Coords, EltTy.bits .bf16 = 32 ∨ (Rect.block (s := S1024x1024) S1024x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S1024x1024.size a
  hwx0_10 : ∀ i : grid0.Coords, EltTy.bits .bf16 = 32 ∨ (Rect.block (s := S1024x1024) S1024x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S1024x1024.size a
  hwx0_11 : ∀ i : grid0.Coords, EltTy.bits .bf16 = 32 ∨ (Rect.block (s := S1024x1024) S1024x256.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x256.size a ≤ S1024x1024.size a
  hwx0_12 : ∀ i : grid0.Coords, EltTy.bits .bf16 = 32 ∨ (Rect.block (s := S1024x1024) S1024x256.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x1024.size a
  hwx0_13 : ∀ i : grid0.Coords, EltTy.bits .f32 = 32 ∨ (Rect.block (s := S1x1024) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x1024.size a
  hwx0_14 : ∀ i : grid0.Coords, EltTy.bits .f32 = 32 ∨ (Rect.block (s := S1x1024) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x1024.size a
  hwx0_15 : ∀ i : grid0.Coords, EltTy.bits .f32 = 32 ∨ (Rect.block (s := S1x1024) S1x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x1024.size a
  hwx0_16 : ∀ i : grid0.Coords, EltTy.bits .f32 = 32 ∨ (Rect.block (s := S1x1024) S1x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x256.size a ≤ S8192x1024.size a
  hwx0_17 : ∀ i : grid0.Coords, EltTy.bits .f32 = 32 ∨ (Rect.block (s := S8192x1024) S512x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x256.size a ≤ S8192x1024.size a
  hwx0_18 : ∀ i : grid0.Coords, EltTy.bits .f32 = 32 ∨ (Rect.block (s := S8192x1024) S512x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x256.size a ≤ S8192x1024.size a
  hwx0_19 : ∀ i : grid0.Coords, EltTy.bits .f32 = 32 ∨ (Rect.block (s := S8192x1024) S512x256.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x256.size a ≤ S8192x1024.size a
  hwx0_20 : ∀ i : grid0.Coords, EltTy.bits .f32 = 32 ∨ (Rect.block (s := S8192x1024) S512x256.size (cc0_transform_20 i) (hinb0_20 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1024x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1024x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1024x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1024x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1024x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v16) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v17) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v18) S1x256.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v19) S1x256.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v20_0) S512x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v20_1) S512x256.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v20_2) S512x256.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v20_3) S512x256.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 132
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S1024x1024, .f32⟩
  | 6 => ⟨S1024x1024, .f32⟩
  | 7 => ⟨S1024x1024, .f32⟩
  | 8 => ⟨S1024x1024, .f32⟩
  | 9 => ⟨S1024x1024, .f32⟩
  | 10 => ⟨S1024x1024, .f32⟩
  | 11 => ⟨S1024x1024, .f32⟩
  | 12 => ⟨S1024x1024, .f32⟩
  | 13 => ⟨S1024, .f32⟩
  | 14 => ⟨S1024, .f32⟩
  | 15 => ⟨S1024, .f32⟩
  | 16 => ⟨S1024, .f32⟩
  | 17 => ⟨S1024x1024, .f32⟩
  | 18 => ⟨S8192x1024, .f32⟩
  | 19 => ⟨S1024x1024, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S_, .f32⟩
  | 26 => ⟨S_, .f32⟩
  | 27 => ⟨S_, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S1024x1024, .f32⟩
  | 34 => ⟨S8192x1024, .f32⟩
  | 35 => ⟨S1024x1024, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S_, .f32⟩
  | 42 => ⟨S_, .f32⟩
  | 43 => ⟨S_, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S1024x1024, .f32⟩
  | 50 => ⟨S8192x1024, .f32⟩
  | 51 => ⟨S1024x1024, .f32⟩
  | 52 => ⟨S8192x1024, .f32⟩
  | 53 => ⟨S8192x1024, .f32⟩
  | 54 => ⟨S1x1024, .f32⟩
  | 55 => ⟨S8192x1024, .f32⟩
  | 56 => ⟨S8192x1024, .f32⟩
  | 57 => ⟨S_, .f32⟩
  | 58 => ⟨S_, .f32⟩
  | 59 => ⟨S_, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S1024x1024, .f32⟩
  | 66 => ⟨S8192x1024, .f32⟩
  | 67 => ⟨S1024x1024, .f32⟩
  | 68 => ⟨S8192x1024, .f32⟩
  | 69 => ⟨S8192x1024, .f32⟩
  | 70 => ⟨S1x1024, .f32⟩
  | 71 => ⟨S8192x1024, .f32⟩
  | 72 => ⟨S8192x1024, .f32⟩
  | 73 => ⟨S_, .f32⟩
  | 74 => ⟨S_, .f32⟩
  | 75 => ⟨S_, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S_, .f32⟩
  | 91 => ⟨S_, .f32⟩
  | 92 => ⟨S_, .f32⟩
  | 93 => ⟨S8192x1024, .f32⟩
  | 94 => ⟨S8192x1024, .f32⟩
  | 95 => ⟨S_, .f32⟩
  | 96 => ⟨S8192x1024, .f32⟩
  | 97 => ⟨S8192x1024, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S_, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S_, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_cst_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_3 : Ref sig .tc := ⟨.hbm, 57, rfl⟩
abbrev main_cst_4 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_5 : Ref sig .tc := ⟨.hbm, 73, rfl⟩
abbrev main_cst_6 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_7 : Ref sig .tc := ⟨.hbm, 84, rfl⟩
abbrev main_v39 : Ref sig .tc := ⟨.hbm, 85, rfl⟩
abbrev main_v40 : Ref sig .tc := ⟨.hbm, 86, rfl⟩
abbrev main_cst_8 : Ref sig .tc := ⟨.hbm, 87, rfl⟩
abbrev main_v41 : Ref sig .tc := ⟨.hbm, 88, rfl⟩
abbrev main_v42 : Ref sig .tc := ⟨.hbm, 89, rfl⟩
abbrev main_cst_9 : Ref sig .tc := ⟨.hbm, 90, rfl⟩
abbrev main_cst_10 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_cst_11 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_12 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_cst_13 : Ref sig .tc := ⟨.hbm, 124, rfl⟩
abbrev main_v68 : Ref sig .tc := ⟨.hbm, 125, rfl⟩
abbrev main_v69 : Ref sig .tc := ⟨.hbm, 126, rfl⟩
abbrev main_cst_14 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Spec.lean ====
/-
  The exponentially gated recurrent cell with a log-domain stabilizer, as one function of its seventeen argument
  arrays, entry by entry, over the extended reals.

  For a batch row p and a hidden unit q, each of the four gates (input i, forget f, output o, cell z) has the
  pre-activation

      g(p, q) = clip_{[-50, 50]} ( Σ_k x[p, k] · W_g[q, k]  +  Σ_k h[p, k] · R_g[q, k]  +  b_g[q] ),

  and the new state is, with ε and 1 − ε the two single-precision literals both programs spell,

      f   = clip_{[ε, 1 − ε]} (σ g_f)
      m'  = max (log f + m, log (exp g_i + ε))
      i'  = exp (log (exp g_i) − m')          f' = exp ((log f + m) − m')
      c'  = f' · c + i' · tanh g_z            n' = f' · n + i'
      h'  = σ g_o · tanh (c' / (n' + ε)),

  where σ x = 1 / (1 + exp (−x)). The clip is written min hi (max lo ·), the order in which both programs apply it.
  Nothing here depends on a program: the two sides of the certificate are each shown to compute these functions.
-/
import Idealize.ShloMosaic.PureOps.Ideal
import Idealize.ShloMosaic.Lib.ValueIdx

noncomputable section

open scoped BigOperators

namespace Cert.Slstm

open Idealize.ShloMosaic Idealize.ShloMosaic.ValueIdx

/-- Batch-by-feature arrays, weight matrices and bias vectors, by their index sets. -/
abbrev Act := (⟨2, ![8192, 1024]⟩ : Shape).Idx → EReal
abbrev Mat := (⟨2, ![1024, 1024]⟩ : Shape).Idx → EReal
abbrev Bias := (⟨1, ![1024]⟩ : Shape).Idx → EReal

/-- The four literals of the cell: the clip bounds ∓50, ε (the single nearest 1e-7) and the single nearest 1 − ε. -/
abbrev lo50 : EReal := Ideal.ofBits .f32 0xC2480000#32
abbrev hi50 : EReal := Ideal.ofBits .f32 0x42480000#32
abbrev eps : EReal := Ideal.ofBits .f32 0x33D6BF95#32
abbrev oneMinusEps : EReal := Ideal.ofBits .f32 0x3F7FFFFE#32

/-- The single-precision pattern of 1.0 denotes the extended real 1. -/
theorem ofBits_one : Ideal.ofBits .f32 0x3F800000#32 = 1 := by
  simp [Ideal.ofBits, Ideal.ieee, -EReal.coe_mul]; norm_num

/-- The logistic function spelled out with that literal, as a host program expands it, is the logistic function. -/
theorem logistic_expanded (x : EReal) :
    Ideal.div (Ideal.ofBits .f32 0x3F800000#32) (Ideal.ofBits .f32 0x3F800000#32 + Ideal.exp (-x)) = Ideal.logistic x := by
  rw [ofBits_one]; rfl

/-- A gate's clipped pre-activation at batch row `p` and hidden unit `q`: row `p` of the input against row `q` of the
    input weights, plus row `p` of the previous hidden state against row `q` of the recurrent weights, plus the bias. -/
def gate (X H : Act) (W R : Mat) (b : Bias) (p : Fin 8192) (q : Fin 1024) : EReal :=
  min hi50 (max lo50 (((∑ k : Fin 1024, X (ix2 p k) * W (ix2 q k)) + ∑ k : Fin 1024, H (ix2 p k) * R (ix2 q k)) + b (ix1 q)))

/-- The clipped forget gate. -/
def forget (gf : EReal) : EReal := min oneMinusEps (max eps (Ideal.logistic gf))

/-- The new stabilizer. -/
def mNew (gi gf m : EReal) : EReal := max (Ideal.log (forget gf) + m) (Ideal.log (Ideal.exp gi + eps))

/-- The stabilized input and forget factors. -/
def iStab (gi gf m : EReal) : EReal := Ideal.exp (Ideal.log (Ideal.exp gi) - mNew gi gf m)
def fStab (gi gf m : EReal) : EReal := Ideal.exp ((Ideal.log (forget gf) + m) - mNew gi gf m)

/-- The new cell state, normalizer and hidden state. -/
def cNew (gi gf gz c m : EReal) : EReal := fStab gi gf m * c + iStab gi gf m * Ideal.tanh gz
def nNew (gi gf n m : EReal) : EReal := fStab gi gf m * n + iStab gi gf m
def hNew (gi gf go gz c n m : EReal) : EReal :=
  Ideal.logistic go * Ideal.tanh (Ideal.div (cNew gi gf gz c m) (nNew gi gf n m + eps))

/-- The four result arrays as functions of the seventeen arguments. -/
def Hout (X H C N M : Act) (Wi Wf Wo Wz Ri Rf Ro Rz : Mat) (bi bf bo bz : Bias) : Act := fun j =>
  hNew (gate X H Wi Ri bi (j 0) (j 1)) (gate X H Wf Rf bf (j 0) (j 1)) (gate X H Wo Ro bo (j 0) (j 1))
    (gate X H Wz Rz bz (j 0) (j 1)) (C j) (N j) (M j)
def Cout (X H C M : Act) (Wi Wf Wz Ri Rf Rz : Mat) (bi bf bz : Bias) : Act := fun j =>
  cNew (gate X H Wi Ri bi (j 0) (j 1)) (gate X H Wf Rf bf (j 0) (j 1)) (gate X H Wz Rz bz (j 0) (j 1)) (C j) (M j)
def Nout (X H N M : Act) (Wi Wf Ri Rf : Mat) (bi bf : Bias) : Act := fun j =>
  nNew (gate X H Wi Ri bi (j 0) (j 1)) (gate X H Wf Rf bf (j 0) (j 1)) (N j) (M j)
def Mout (X H M : Act) (Wi Wf Ri Rf : Mat) (bi bf : Bias) : Act := fun j =>
  mNew (gate X H Wi Ri bi (j 0) (j 1)) (gate X H Wf Rf bf (j 0) (j 1)) (M j)

end Cert.Slstm

end
-- ==== Proof.GateBlocks.lean ====
/-
  A gate's pre-activation computed from blocks. The batch axis is cut into 16 row blocks of 512 and the hidden axis
  into 4 column blocks of 256. At row block `i` and column block `j` a grid point sees rows 512 i … 512 i + 511 of the
  input and of the previous hidden state (all 1024 columns), columns 256 j … 256 j + 255 of the TRANSPOSED weight
  matrices (all 1024 rows), and the same columns of the bias laid out as one row. The block expression — the two
  row-by-column products over the whole contraction axis, added, plus the bias row, clipped — is then the gate of the
  whole arrays at the entry the block position stands for.
-/
import proofs.«161524_j979252544372_1_alg».proof.Proof.Spec

noncomputable section

open scoped BigOperators

namespace Cert.Slstm

open Idealize.ShloMosaic Idealize.ShloMosaic.ValueIdx

/-- Row `u` of row block `i`, and column `s` of column block `j`, as positions in the whole arrays. -/
abbrev rowOf (i : Fin 16) (u : Fin 512) : Fin 8192 := ⟨512 * i.val + u.val, by have := i.isLt; have := u.isLt; omega⟩
abbrev colOf (j : Fin 4) (s : Fin 256) : Fin 1024 := ⟨256 * j.val + s.val, by have := j.isLt; have := s.isLt; omega⟩

/-- Blocks of activations, of transposed weights and of the bias row. -/
abbrev ActRows := (⟨2, ![512, 1024]⟩ : Shape).Idx → EReal
abbrev ActBlk := (⟨2, ![512, 256]⟩ : Shape).Idx → EReal
abbrev MatCols := (⟨2, ![1024, 256]⟩ : Shape).Idx → EReal
abbrev BiasCols := (⟨2, ![1, 256]⟩ : Shape).Idx → EReal

/-- The gate as a grid point computes it from its blocks, at row `u` and column `s` of the block. -/
def gateBlk (x h : ActRows) (w r : MatCols) (b : BiasCols) (u : Fin 512) (s : Fin 256) : EReal :=
  min hi50 (max lo50 (((∑ k : Fin 1024, x (ix2 u k) * w (ix2 k s)) + ∑ k : Fin 1024, h (ix2 u k) * r (ix2 k s))
    + b (ix2 (0 : Fin 1) s)))

/-- When the blocks are the stated rows and columns of the whole arrays — the weight blocks columns of the transposes —
    the block expression is the gate of the whole arrays: the same products summed over the same axis in the same order. -/
theorem gateBlk_eq_gate (X H : Act) (W R : Mat) (b : Bias) (x h : ActRows) (w r : MatCols) (bb : BiasCols)
    (i : Fin 16) (j : Fin 4)
    (hx : ∀ (u : Fin 512) (k : Fin 1024), x (ix2 u k) = X (ix2 (rowOf i u) k))
    (hh : ∀ (u : Fin 512) (k : Fin 1024), h (ix2 u k) = H (ix2 (rowOf i u) k))
    (hw : ∀ (k : Fin 1024) (s : Fin 256), w (ix2 k s) = W (ix2 (colOf j s) k))
    (hr : ∀ (k : Fin 1024) (s : Fin 256), r (ix2 k s) = R (ix2 (colOf j s) k))
    (hb : ∀ s : Fin 256, bb (ix2 (0 : Fin 1) s) = b (ix1 (colOf j s)))
    (u : Fin 512) (s : Fin 256) :
    gateBlk x h w r bb u s = gate X H W R b (rowOf i u) (colOf j s) := by
  unfold gateBlk gate
  simp only [hx, hh, hw, hr, hb]

end Cert.Slstm

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.KernelCell.lean ====
/-
  What one grid point computes, read entry by entry. The kernel body loads a 512-row block of the input and of the
  previous hidden state, a 256-column block of each transposed weight matrix and of each bias row, and the matching
  [512, 256] blocks of the previous cell state, normalizer and stabilizer. Each gate is two matrix products into a zero
  accumulator, added, plus the bias row broadcast down the block, clipped to [−50, 50] — `gateBlk` of those blocks —
  and everything after the gates acts entry by entry: the cell's formulas (Spec.lean), term for term.
-/
import proofs.«161524_j979252544372_1_alg».proof.Proof.Gen.KernelIdeal.Skeleton
import proofs.«161524_j979252544372_1_alg».proof.Proof.GateBlocks
import proofs.«161524_j979252544372_1_alg».proof.Proof.LibMatDot
import Idealize.ShloMosaic.Lib.ValueLayout

noncomputable section

open scoped BigOperators

namespace Cert.KernelIdeal.Cell

open Cert.KernelIdeal Cert.KernelIdeal.Gen Idealize.ShloMosaic Idealize.ShloMosaic.ValueIdx Cert.Slstm

/-! ## One block product -/

/-- Where the products' dimension numbers read their operands: the left one at (row of the entry, position on the
    contracted axis), the right one at (position on the contracted axis, column of the entry). -/
theorem lhs_row (j : S512x256.Idx) (c : dot_S512x1024_S1024x256_S512x256_1_0_0_1_n_n.contr.Idx) :
    (dot_S512x1024_S1024x256_S512x256_1_0_0_1_n_n.lhsIdx j c 0).val = (j 0).val := by
  unfold DotDims.lhsIdx
  rw [dif_neg (show ¬(0 : Fin S512x1024.rank) ∈ dot_S512x1024_S1024x256_S512x256_1_0_0_1_n_n.lhsBatch by decide),
    dif_pos (show (0 : Fin S512x1024.rank) ∈ dot_S512x1024_S1024x256_S512x256_1_0_0_1_n_n.lhsNonContracting by decide)]
  rfl
theorem lhs_pos (j : S512x256.Idx) (c : dot_S512x1024_S1024x256_S512x256_1_0_0_1_n_n.contr.Idx) :
    (dot_S512x1024_S1024x256_S512x256_1_0_0_1_n_n.lhsIdx j c 1).val = (c ⟨0, by decide⟩).val :=
  dot_S512x1024_S1024x256_S512x256_1_0_0_1_n_n.lhsIdx_val_of_single rfl j c
theorem rhs_pos (j : S512x256.Idx) (c : dot_S512x1024_S1024x256_S512x256_1_0_0_1_n_n.contr.Idx) :
    (dot_S512x1024_S1024x256_S512x256_1_0_0_1_n_n.rhsIdx j c 0).val = (c ⟨0, by decide⟩).val :=
  dot_S512x1024_S1024x256_S512x256_1_0_0_1_n_n.rhsIdx_val_of_single rfl j c
theorem rhs_col (j : S512x256.Idx) (c : dot_S512x1024_S1024x256_S512x256_1_0_0_1_n_n.contr.Idx) :
    (dot_S512x1024_S1024x256_S512x256_1_0_0_1_n_n.rhsIdx j c 1).val = (j 1).val := by
  unfold DotDims.rhsIdx
  rw [dif_neg (show ¬(1 : Fin S1024x256.rank) ∈ dot_S512x1024_S1024x256_S512x256_1_0_0_1_n_n.rhsBatch by decide),
    dif_pos (show (1 : Fin S1024x256.rank) ∈ dot_S512x1024_S1024x256_S512x256_1_0_0_1_n_n.rhsNonContracting by decide)]
  rfl

/-- A block product into the zero accumulator, at row `u` and column `s`: row `u` of the left block against column `s` of
    the right block, over the 1024 positions of the shared axis. -/
theorem blockProduct {φ₁ φ₂ : FTy} (x : FVec Ideal S512x1024 φ₁) (w : FVec Ideal S1024x256 φ₂) (u : Fin 512) (s : Fin 256) :
    FloatOps.matmul dot_S512x1024_S1024x256_S512x256_1_0_0_1_n_n none x w (constant (F := Ideal) S512x256 .f32 0x00000000#32) (ix2 u s)
      = ∑ k : Fin 1024, x (ix2 u k) * w (ix2 k s) :=
  mat_dot_zero dot_S512x1024_S1024x256_S512x256_1_0_0_1_n_n none rfl rfl lhs_row lhs_pos rhs_pos rhs_col x w u s

/-- The bias row broadcast down the block reads, at any row, the row's entry of that column. -/
theorem biasRow (b : FVec Ideal S1x256 .f32) (u : Fin 512) (s : Fin 256) :
    broadcastTo S512x256 b broadcasts_S1x256_S512x256 (ix2 u s) = b (ix2 (0 : Fin 1) s) :=
  broadcastTo_1b_ab_apply b broadcasts_S1x256_S512x256 u s

/-! ## The four gates -/

/-- The input gate's payload at an entry of the block. -/
theorem inputGate (v0 v2 : Vec Ideal S512x1024 .f32) (v7 v9 : Vec Ideal S1024x256 .bf16) (v11 : Vec Ideal S1x256 .f32)
    (u : Fin 512) (s : Fin 256) :
    k0_pay10 v0 v2 v7 v9 v11 (ix2 u s) = gateBlk v0 v2 v7 v9 v11 u s := by
  unfold k0_pay10 k0_pay8 k0_pay9 gateBlk
  simp only [shapeCast_self]
  show min _ (max _ ((FloatOps.matmul dot_S512x1024_S1024x256_S512x256_1_0_0_1_n_n none _ _ _ (ix2 u s) + FloatOps.matmul dot_S512x1024_S1024x256_S512x256_1_0_0_1_n_n none _ _ _ (ix2 u s))
    + broadcastTo S512x256 _ _ (ix2 u s))) = _
  rw [blockProduct, blockProduct, biasRow]
  rfl

/-- The forget gate's payload, which the printed body computes in three parts. -/
theorem forgetGate (v0 v2 : Vec Ideal S512x1024 .f32) (v22 v24 : Vec Ideal S1024x256 .bf16) (v26 : Vec Ideal S1x256 .f32)
    (u : Fin 512) (s : Fin 256) :
    k0_pay14 (k0_pay11 v26) (k0_pay12 v0 v22) (k0_pay13 v2 v24) (ix2 u s) = gateBlk v0 v2 v22 v24 v26 u s := by
  unfold k0_pay14 k0_pay11 k0_pay12 k0_pay13 k0_pay8 k0_pay9 gateBlk
  simp only [shapeCast_self]
  show min _ (max _ ((FloatOps.matmul dot_S512x1024_S1024x256_S512x256_1_0_0_1_n_n none _ _ _ (ix2 u s) + FloatOps.matmul dot_S512x1024_S1024x256_S512x256_1_0_0_1_n_n none _ _ _ (ix2 u s))
    + broadcastTo S512x256 _ _ (ix2 u s))) = _
  rw [blockProduct, blockProduct, biasRow]
  rfl

/-- The output gate's payload. -/
theorem outputGate (v0 v2 : Vec Ideal S512x1024 .f32) (v37 v39 : Vec Ideal S1024x256 .bf16) (v41 : Vec Ideal S1x256 .f32)
    (u : Fin 512) (s : Fin 256) :
    k0_pay15 (k0_pay8 v0) (k0_pay9 v2) v37 v39 v41 (ix2 u s) = gateBlk v0 v2 v37 v39 v41 u s := by
  unfold k0_pay15 k0_pay8 k0_pay9 gateBlk
  simp only [shapeCast_self]
  show min _ (max _ ((FloatOps.matmul dot_S512x1024_S1024x256_S512x256_1_0_0_1_n_n none _ _ _ (ix2 u s) + FloatOps.matmul dot_S512x1024_S1024x256_S512x256_1_0_0_1_n_n none _ _ _ (ix2 u s))
    + broadcastTo S512x256 _ _ (ix2 u s))) = _
  rw [blockProduct, blockProduct, biasRow]
  rfl

/-- The cell gate's payload. -/
theorem cellGate (v0 v2 : Vec Ideal S512x1024 .f32) (v52 v54 : Vec Ideal S1024x256 .bf16) (v56 : Vec Ideal S1x256 .f32)
    (u : Fin 512) (s : Fin 256) :
    k0_pay16 (k0_pay8 v0) (k0_pay9 v2) v52 v54 v56 (ix2 u s) = gateBlk v0 v2 v52 v54 v56 u s := by
  unfold k0_pay16 k0_pay8 k0_pay9 gateBlk
  simp only [shapeCast_self]
  show min _ (max _ ((FloatOps.matmul dot_S512x1024_S1024x256_S512x256_1_0_0_1_n_n none _ _ _ (ix2 u s) + FloatOps.matmul dot_S512x1024_S1024x256_S512x256_1_0_0_1_n_n none _ _ _ (ix2 u s))
    + broadcastTo S512x256 _ _ (ix2 u s))) = _
  rw [blockProduct, blockProduct, biasRow]
  rfl

/-! ## After the gates: entry by entry -/

/-- The stored stabilizer, from the gates' values and the previous stabilizer at the entry. -/
theorem stabilizer_apply (m : Vec Ideal S512x256 .f32) (gf gi : FVec Ideal S512x256 .f32) (y : S512x256.Idx) :
    k0_pay2 m gf (k0_pay17 gi) y = mNew (gi y) (gf y) (m y) := rfl

/-- The stored cell state. -/
theorem cellState_apply (c m : Vec Ideal S512x256 .f32) (gf gz gi : FVec Ideal S512x256 .f32) (y : S512x256.Idx) :
    k0_pay5 c m gf gz (k0_pay17 gi) y = cNew (gi y) (gf y) (gz y) (c y) (m y) := rfl

/-- The stored normalizer. -/
theorem normalizer_apply (n m : Vec Ideal S512x256 .f32) (gf gi : FVec Ideal S512x256 .f32) (y : S512x256.Idx) :
    k0_pay6 n m gf (k0_pay17 gi) y = nNew (gi y) (gf y) (n y) (m y) := rfl

/-- The stored hidden state. -/
theorem hidden_apply (c n m : Vec Ideal S512x256 .f32) (gf go gz gi : FVec Ideal S512x256 .f32) (y : S512x256.Idx) :
    k0_pay7 c n m gf go gz (k0_pay17 gi) y = hNew (gi y) (gf y) (go y) (gz y) (c y) (n y) (m y) := rfl

end Cert.KernelIdeal.Cell

end
-- ==== Proof.KernelBlock.lean ====
/-
  The four blocks one grid point leaves, as functions of the blocks it was given. Each output's staging buffer is
  written once, whole; read at an entry, the written value is the cell's formula of the four gates of the point's
  blocks (`gateBlk`) and of the previous state's entries there.
-/
import proofs.«161524_j979252544372_1_alg».proof.Proof.Gen.KernelIdeal.Frame
import proofs.«161524_j979252544372_1_alg».proof.Proof.KernelCell

noncomputable section

namespace Cert.KernelIdeal.Cell

open Cert.KernelIdeal Cert.KernelIdeal.Gen Idealize.ShloMosaic Idealize.ShloMosaic.ValueIdx Cert.Slstm

/-- Every load and store of the body is at offset zero of its buffer. -/
theorem hz : (![0, 0] : Fin 2 → Nat) = fun _ => 0 := funext fun a => by fin_cases a <;> rfl

/-- The hidden-state block. -/
theorem hidden_blk (x0 x1 : Vec Ideal S512x1024 .f32) (x2 x3 x4 : Vec Ideal S512x256 .f32) (x5 x6 x7 x8 x9 x10 x11 x12 : Vec Ideal S1024x256 .bf16) (x13 x14 x15 x16 : Vec Ideal S1x256 .f32) (y : S512x256.Idx) :
    out0_17 x0 x1 x2 x3 x4 x5 x6 x7 x8 x9 x10 x11 x12 x13 x14 x15 x16 y = hNew (gateBlk x0 x1 x5 x9 x13 (y 0) (y 1)) (gateBlk x0 x1 x6 x10 x14 (y 0) (y 1))
      (gateBlk x0 x1 x7 x11 x15 (y 0) (y 1)) (gateBlk x0 x1 x8 x12 x16 (y 0) (y 1)) (x2 y) (x3 y) (x4 y) := by
  obtain ⟨u, s, rfl⟩ : ∃ (u : Fin 512) (s : Fin 256), y = ix2 u s := ⟨y 0, y 1, eq_ix2 y⟩
  unfold out0_17
  rw [View.canon_unit_zero hz]
  simp only [View.ld_unit_zero (S := S512x1024) hz, View.ld_unit_zero (S := S512x256) hz,
    View.ld_unit_zero (S := S1024x256) hz, View.ld_unit_zero (S := S1x256) hz]
  rw [hidden_apply, inputGate, forgetGate, outputGate, cellGate]

/-- The cell-state block. -/
theorem cellState_blk (x0 x1 : Vec Ideal S512x1024 .f32) (x2 x3 x4 : Vec Ideal S512x256 .f32) (x5 x6 x7 x8 x9 x10 x11 x12 : Vec Ideal S1024x256 .bf16) (x13 x14 x15 x16 : Vec Ideal S1x256 .f32) (y : S512x256.Idx) :
    out0_18 x0 x1 x2 x3 x4 x5 x6 x7 x8 x9 x10 x11 x12 x13 x14 x15 x16 y = cNew (gateBlk x0 x1 x5 x9 x13 (y 0) (y 1)) (gateBlk x0 x1 x6 x10 x14 (y 0) (y 1))
      (gateBlk x0 x1 x8 x12 x16 (y 0) (y 1)) (x2 y) (x4 y) := by
  obtain ⟨u, s, rfl⟩ : ∃ (u : Fin 512) (s : Fin 256), y = ix2 u s := ⟨y 0, y 1, eq_ix2 y⟩
  unfold out0_18
  rw [View.canon_unit_zero hz]
  simp only [View.ld_unit_zero (S := S512x1024) hz, View.ld_unit_zero (S := S512x256) hz,
    View.ld_unit_zero (S := S1024x256) hz, View.ld_unit_zero (S := S1x256) hz]
  rw [cellState_apply, inputGate, forgetGate, cellGate]

/-- The normalizer block. -/
theorem normalizer_blk (x0 x1 : Vec Ideal S512x1024 .f32) (x2 x3 x4 : Vec Ideal S512x256 .f32) (x5 x6 x7 x8 x9 x10 x11 x12 : Vec Ideal S1024x256 .bf16) (x13 x14 x15 x16 : Vec Ideal S1x256 .f32) (y : S512x256.Idx) :
    out0_19 x0 x1 x2 x3 x4 x5 x6 x7 x8 x9 x10 x11 x12 x13 x14 x15 x16 y = nNew (gateBlk x0 x1 x5 x9 x13 (y 0) (y 1)) (gateBlk x0 x1 x6 x10 x14 (y 0) (y 1)) (x3 y) (x4 y) := by
  obtain ⟨u, s, rfl⟩ : ∃ (u : Fin 512) (s : Fin 256), y = ix2 u s := ⟨y 0, y 1, eq_ix2 y⟩
  unfold out0_19
  rw [View.canon_unit_zero hz]
  simp only [View.ld_unit_zero (S := S512x1024) hz, View.ld_unit_zero (S := S512x256) hz,
    View.ld_unit_zero (S := S1024x256) hz, View.ld_unit_zero (S := S1x256) hz]
  rw [normalizer_apply, inputGate, forgetGate]

/-- The stabilizer block. -/
theorem stabilizer_blk (x0 x1 : Vec Ideal S512x1024 .f32) (x2 x3 x4 : Vec Ideal S512x256 .f32) (x5 x6 x7 x8 x9 x10 x11 x12 : Vec Ideal S1024x256 .bf16) (x13 x14 x15 x16 : Vec Ideal S1x256 .f32) (y : S512x256.Idx) :
    out0_20 x0 x1 x2 x3 x4 x5 x6 x7 x8 x9 x10 x11 x12 x13 x14 x15 x16 y = mNew (gateBlk x0 x1 x5 x9 x13 (y 0) (y 1)) (gateBlk x0 x1 x6 x10 x14 (y 0) (y 1)) (x4 y) := by
  obtain ⟨u, s, rfl⟩ : ∃ (u : Fin 512) (s : Fin 256), y = ix2 u s := ⟨y 0, y 1, eq_ix2 y⟩
  unfold out0_20
  rw [View.canon_unit_zero hz]
  simp only [View.ld_unit_zero (S := S512x1024) hz, View.ld_unit_zero (S := S512x256) hz,
    View.ld_unit_zero (S := S1024x256) hz, View.ld_unit_zero (S := S1x256) hz]
  rw [stabilizer_apply, inputGate, forgetGate]

end Cert.KernelIdeal.Cell

end
-- ==== Proof.KernelRun.lean ====
/-
  From blocks to arrays. The grid has 16 × 4 points; point t stands at row block t / 4 and column block t mod 4. The
  windows of the input and the previous hidden state follow the row block, those of the transposed weights and of the
  bias rows the column block, those of the previous state and of the four results both. The host operations before the
  launch transpose each weight matrix (and change its format, which changes no extended real) and lay each bias out as
  one row; so a point's gate blocks are rows of the arguments themselves, and what the point writes back is its
  [512, 256] tile of the cell of the whole arguments (Spec.lean). The tiles cover the result arrays.
-/
import proofs.«161524_j979252544372_1_alg».proof.Proof.Gen.KernelIdeal.Value
import proofs.«161524_j979252544372_1_alg».proof.Proof.KernelBlock
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Value Cert.KernelIdeal.Cell
open Idealize.ShloMosaic Idealize.ShloMosaic.TcCoe Idealize.SL.Sem Idealize.ShloMosaic.ValueIdx Cert.Slstm
open Idealize.ShloMosaic.Pipeline (Dat)

variable (m : (ℓ : Loc nD τ sig) → Buf (Elt Ideal) ℓ) (ρ : Dev nD → PrngReg)

/-! ## The arrays the region finds -/

/-- The array window 5 reads is argument 5 transposed (the change of format is the identity on extended reals). -/
theorem transposed5 (c : Dev nD) (k q : Fin 1024) :
    (V m c main_v1 : S1024x1024.Idx → EReal) (ix2 k q) = (m ((c : Thread nD τ).loc main_arg5) : Mat) (ix2 q k) := by
  have e : @Eq (FVec Ideal S1024x1024 .bf16) (V m c main_v1)
      (truncf (F := Ideal) .bf16 (transpose S1024x1024 [1, 0] (m ((c : Thread nD τ).loc main_arg5) : FVec Ideal S1024x1024 .f32)
          transposes_S1024x1024_S1024x1024_1_0) bitsLt_bf16_f32) := by
    dsimp only [Gen.V, Gen.hostOps0]; after_results
  rw [e]
  exact transpose_ix2_apply _ transposes_S1024x1024_S1024x1024_1_0 k q

/-- The array window 6 reads is argument 6 transposed (the change of format is the identity on extended reals). -/
theorem transposed6 (c : Dev nD) (k q : Fin 1024) :
    (V m c main_v3 : S1024x1024.Idx → EReal) (ix2 k q) = (m ((c : Thread nD τ).loc main_arg6) : Mat) (ix2 q k) := by
  have e : @Eq (FVec Ideal S1024x1024 .bf16) (V m c main_v3)
      (truncf (F := Ideal) .bf16 (transpose S1024x1024 [1, 0] (m ((c : Thread nD τ).loc main_arg6) : FVec Ideal S1024x1024 .f32)
          transposes_S1024x1024_S1024x1024_1_0) bitsLt_bf16_f32) := by
    dsimp only [Gen.V, Gen.hostOps0]; after_results
  rw [e]
  exact transpose_ix2_apply _ transposes_S1024x1024_S1024x1024_1_0 k q

/-- The array window 7 reads is argument 7 transposed (the change of format is the identity on extended reals). -/
theorem transposed7 (c : Dev nD) (k q : Fin 1024) :
    (V m c main_v5 : S1024x1024.Idx → EReal) (ix2 k q) = (m ((c : Thread nD τ).loc main_arg7) : Mat) (ix2 q k) := by
  have e : @Eq (FVec Ideal S1024x1024 .bf16) (V m c main_v5)
      (truncf (F := Ideal) .bf16 (transpose S1024x1024 [1, 0] (m ((c : Thread nD τ).loc main_arg7) : FVec Ideal S1024x1024 .f32)
          transposes_S1024x1024_S1024x1024_1_0) bitsLt_bf16_f32) := by
    dsimp only [Gen.V, Gen.hostOps0]; after_results
  rw [e]
  exact transpose_ix2_apply _ transposes_S1024x1024_S1024x1024_1_0 k q

/-- The array window 8 reads is argument 8 transposed (the change of format is the identity on extended reals). -/
theorem transposed8 (c : Dev nD) (k q : Fin 1024) :
    (V m c main_v7 : S1024x1024.Idx → EReal) (ix2 k q) = (m ((c : Thread nD τ).loc main_arg8) : Mat) (ix2 q k) := by
  have e : @Eq (FVec Ideal S1024x1024 .bf16) (V m c main_v7)
      (truncf (F := Ideal) .bf16 (transpose S1024x1024 [1, 0] (m ((c : Thread nD τ).loc main_arg8) : FVec Ideal S1024x1024 .f32)
          transposes_S1024x1024_S1024x1024_1_0) bitsLt_bf16_f32) := by
    dsimp only [Gen.V, Gen.hostOps0]; after_results
  rw [e]
  exact transpose_ix2_apply _ transposes_S1024x1024_S1024x1024_1_0 k q

/-- The array window 9 reads is argument 9 transposed (the change of format is the identity on extended reals). -/
theorem transposed9 (c : Dev nD) (k q : Fin 1024) :
    (V m c main_v9 : S1024x1024.Idx → EReal) (ix2 k q) = (m ((c : Thread nD τ).loc main_arg9) : Mat) (ix2 q k) := by
  have e : @Eq (FVec Ideal S1024x1024 .bf16) (V m c main_v9)
      (truncf (F := Ideal) .bf16 (transpose S1024x1024 [1, 0] (m ((c : Thread nD τ).loc main_arg9) : FVec Ideal S1024x1024 .f32)
          transposes_S1024x1024_S1024x1024_1_0) bitsLt_bf16_f32) := by
    dsimp only [Gen.V, Gen.hostOps0]; after_results
  rw [e]
  exact transpose_ix2_apply _ transposes_S1024x1024_S1024x1024_1_0 k q

/-- The array window 10 reads is argument 10 transposed (the change of format is the identity on extended reals). -/
theorem transposed10 (c : Dev nD) (k q : Fin 1024) :
    (V m c main_v11 : S1024x1024.Idx → EReal) (ix2 k q) = (m ((c : Thread nD τ).loc main_arg10) : Mat) (ix2 q k) := by
  have e : @Eq (FVec Ideal S1024x1024 .bf16) (V m c main_v11)
      (truncf (F := Ideal) .bf16 (transpose S1024x1024 [1, 0] (m ((c : Thread nD τ).loc main_arg10) : FVec Ideal S1024x1024 .f32)
          transposes_S1024x1024_S1024x1024_1_0) bitsLt_bf16_f32) := by
    dsimp only [Gen.V, Gen.hostOps0]; after_results
  rw [e]
  exact transpose_ix2_apply _ transposes_S1024x1024_S1024x1024_1_0 k q

/-- The array window 11 reads is argument 11 transposed (the change of format is the identity on extended reals). -/
theorem transposed11 (c : Dev nD) (k q : Fin 1024) :
    (V m c main_v13 : S1024x1024.Idx → EReal) (ix2 k q) = (m ((c : Thread nD τ).loc main_arg11) : Mat) (ix2 q k) := by
  have e : @Eq (FVec Ideal S1024x1024 .bf16) (V m c main_v13)
      (truncf (F := Ideal) .bf16 (transpose S1024x1024 [1, 0] (m ((c : Thread nD τ).loc main_arg11) : FVec Ideal S1024x1024 .f32)
          transposes_S1024x1024_S1024x1024_1_0) bitsLt_bf16_f32) := by
    dsimp only [Gen.V, Gen.hostOps0]; after_results
  rw [e]
  exact transpose_ix2_apply _ transposes_S1024x1024_S1024x1024_1_0 k q

/-- The array window 12 reads is argument 12 transposed (the change of format is the identity on extended reals). -/
theorem transposed12 (c : Dev nD) (k q : Fin 1024) :
    (V m c main_v15 : S1024x1024.Idx → EReal) (ix2 k q) = (m ((c : Thread nD τ).loc main_arg12) : Mat) (ix2 q k) := by
  have e : @Eq (FVec Ideal S1024x1024 .bf16) (V m c main_v15)
      (truncf (F := Ideal) .bf16 (transpose S1024x1024 [1, 0] (m ((c : Thread nD τ).loc main_arg12) : FVec Ideal S1024x1024 .f32)
          transposes_S1024x1024_S1024x1024_1_0) bitsLt_bf16_f32) := by
    dsimp only [Gen.V, Gen.hostOps0]; after_results
  rw [e]
  exact transpose_ix2_apply _ transposes_S1024x1024_S1024x1024_1_0 k q

/-- The array window 13 reads is argument 13 laid out as one row. -/
theorem asRow13 (c : Dev nD) (q : Fin 1024) :
    (V m c main_v16 : S1x1024.Idx → EReal) (ix2 (0 : Fin 1) q) = (m ((c : Thread nD τ).loc main_arg13) : Bias) (ix1 q) := by
  have e : @Eq (FVec Ideal S1x1024 .f32) (V m c main_v16)
      (shapeCast S1x1024 (m ((c : Thread nD τ).loc main_arg13) : FVec Ideal S1024 .f32) shapeCasts_S1024_S1x1024) := by
    dsimp only [Gen.V, Gen.hostOps0]; after_results; rfl
  rw [e]
  exact shapeCast_a_1a_apply _ shapeCasts_S1024_S1x1024 0 q

/-- The array window 14 reads is argument 14 laid out as one row. -/
theorem asRow14 (c : Dev nD) (q : Fin 1024) :
    (V m c main_v17 : S1x1024.Idx → EReal) (ix2 (0 : Fin 1) q) = (m ((c : Thread nD τ).loc main_arg14) : Bias) (ix1 q) := by
  have e : @Eq (FVec Ideal S1x1024 .f32) (V m c main_v17)
      (shapeCast S1x1024 (m ((c : Thread nD τ).loc main_arg14) : FVec Ideal S1024 .f32) shapeCasts_S1024_S1x1024) := by
    dsimp only [Gen.V, Gen.hostOps0]; after_results; rfl
  rw [e]
  exact shapeCast_a_1a_apply _ shapeCasts_S1024_S1x1024 0 q

/-- The array window 15 reads is argument 15 laid out as one row. -/
theorem asRow15 (c : Dev nD) (q : Fin 1024) :
    (V m c main_v18 : S1x1024.Idx → EReal) (ix2 (0 : Fin 1) q) = (m ((c : Thread nD τ).loc main_arg15) : Bias) (ix1 q) := by
  have e : @Eq (FVec Ideal S1x1024 .f32) (V m c main_v18)
      (shapeCast S1x1024 (m ((c : Thread nD τ).loc main_arg15) : FVec Ideal S1024 .f32) shapeCasts_S1024_S1x1024) := by
    dsimp only [Gen.V, Gen.hostOps0]; after_results; rfl
  rw [e]
  exact shapeCast_a_1a_apply _ shapeCasts_S1024_S1x1024 0 q

/-- The array window 16 reads is argument 16 laid out as one row. -/
theorem asRow16 (c : Dev nD) (q : Fin 1024) :
    (V m c main_v19 : S1x1024.Idx → EReal) (ix2 (0 : Fin 1) q) = (m ((c : Thread nD τ).loc main_arg16) : Bias) (ix1 q) := by
  have e : @Eq (FVec Ideal S1x1024 .f32) (V m c main_v19)
      (shapeCast S1x1024 (m ((c : Thread nD τ).loc main_arg16) : FVec Ideal S1024 .f32) shapeCasts_S1024_S1x1024) := by
    dsimp only [Gen.V, Gen.hostOps0]; after_results; rfl
  rw [e]
  exact shapeCast_a_1a_apply _ shapeCasts_S1024_S1x1024 0 q

/-! ## The grid's points -/

theorem N64 : cfg0.N = 64 := N_0

/-- A point's row block and column block. -/
def pointRow (t : Fin cfg0.N) : Fin 16 := ⟨t.val / 4, by have h : t.val < 64 := lt_of_lt_of_eq t.isLt N64; omega⟩
def pointCol (t : Fin cfg0.N) : Fin 4 := ⟨t.val % 4, Nat.mod_lt _ (by decide)⟩

/-- The array position under position `y` of a point's [512, 256] tile. -/
abbrev entryOf (t : Fin cfg0.N) (y : S512x256.Idx) : S8192x1024.Idx := ix2 (rowOf (pointRow t) (y 0)) (colOf (pointCol t) (y 1))

/-- The printed index maps, decided over the 64 points. -/
theorem idx0 : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)
theorem idx1 : ∀ t : Fin cfg0.N, win0_1.index t (0 : Fin 2) = t.val / 4 ∧ win0_1.index t (1 : Fin 2) = 0 :=
  (by decide +kernel : ∀ t : Fin grid0.N, win0_1.index t (0 : Fin 2) = t.val / 4 ∧ win0_1.index t (1 : Fin 2) = 0)
theorem idx2 : ∀ t : Fin cfg0.N, win0_2.index t (0 : Fin 2) = t.val / 4 ∧ win0_2.index t (1 : Fin 2) = t.val % 4 :=
  (by decide +kernel : ∀ t : Fin grid0.N, win0_2.index t (0 : Fin 2) = t.val / 4 ∧ win0_2.index t (1 : Fin 2) = t.val % 4)
theorem idx3 : ∀ t : Fin cfg0.N, win0_3.index t (0 : Fin 2) = t.val / 4 ∧ win0_3.index t (1 : Fin 2) = t.val % 4 :=
  (by decide +kernel : ∀ t : Fin grid0.N, win0_3.index t (0 : Fin 2) = t.val / 4 ∧ win0_3.index t (1 : Fin 2) = t.val % 4)
theorem idx4 : ∀ t : Fin cfg0.N, win0_4.index t (0 : Fin 2) = t.val / 4 ∧ win0_4.index t (1 : Fin 2) = t.val % 4 :=
  (by decide +kernel : ∀ t : Fin grid0.N, win0_4.index t (0 : Fin 2) = t.val / 4 ∧ win0_4.index t (1 : Fin 2) = t.val % 4)
theorem idx17 : ∀ t : Fin cfg0.N, win0_17.index t (0 : Fin 2) = t.val / 4 ∧ win0_17.index t (1 : Fin 2) = t.val % 4 :=
  (by decide +kernel : ∀ t : Fin grid0.N, win0_17.index t (0 : Fin 2) = t.val / 4 ∧ win0_17.index t (1 : Fin 2) = t.val % 4)
theorem idx18 : ∀ t : Fin cfg0.N, win0_18.index t (0 : Fin 2) = t.val / 4 ∧ win0_18.index t (1 : Fin 2) = t.val % 4 :=
  (by decide +kernel : ∀ t : Fin grid0.N, win0_18.index t (0 : Fin 2) = t.val / 4 ∧ win0_18.index t (1 : Fin 2) = t.val % 4)
theorem idx19 : ∀ t : Fin cfg0.N, win0_19.index t (0 : Fin 2) = t.val / 4 ∧ win0_19.index t (1 : Fin 2) = t.val % 4 :=
  (by decide +kernel : ∀ t : Fin grid0.N, win0_19.index t (0 : Fin 2) = t.val / 4 ∧ win0_19.index t (1 : Fin 2) = t.val % 4)
theorem idx20 : ∀ t : Fin cfg0.N, win0_20.index t (0 : Fin 2) = t.val / 4 ∧ win0_20.index t (1 : Fin 2) = t.val % 4 :=
  (by decide +kernel : ∀ t : Fin grid0.N, win0_20.index t (0 : Fin 2) = t.val / 4 ∧ win0_20.index t (1 : Fin 2) = t.val % 4)
theorem idx5 : ∀ t : Fin cfg0.N, win0_5.index t (0 : Fin 2) = 0 ∧ win0_5.index t (1 : Fin 2) = t.val % 4 :=
  (by decide +kernel : ∀ t : Fin grid0.N, win0_5.index t (0 : Fin 2) = 0 ∧ win0_5.index t (1 : Fin 2) = t.val % 4)
theorem idx6 : ∀ t : Fin cfg0.N, win0_6.index t (0 : Fin 2) = 0 ∧ win0_6.index t (1 : Fin 2) = t.val % 4 :=
  (by decide +kernel : ∀ t : Fin grid0.N, win0_6.index t (0 : Fin 2) = 0 ∧ win0_6.index t (1 : Fin 2) = t.val % 4)
theorem idx7 : ∀ t : Fin cfg0.N, win0_7.index t (0 : Fin 2) = 0 ∧ win0_7.index t (1 : Fin 2) = t.val % 4 :=
  (by decide +kernel : ∀ t : Fin grid0.N, win0_7.index t (0 : Fin 2) = 0 ∧ win0_7.index t (1 : Fin 2) = t.val % 4)
theorem idx8 : ∀ t : Fin cfg0.N, win0_8.index t (0 : Fin 2) = 0 ∧ win0_8.index t (1 : Fin 2) = t.val % 4 :=
  (by decide +kernel : ∀ t : Fin grid0.N, win0_8.index t (0 : Fin 2) = 0 ∧ win0_8.index t (1 : Fin 2) = t.val % 4)
theorem idx9 : ∀ t : Fin cfg0.N, win0_9.index t (0 : Fin 2) = 0 ∧ win0_9.index t (1 : Fin 2) = t.val % 4 :=
  (by decide +kernel : ∀ t : Fin grid0.N, win0_9.index t (0 : Fin 2) = 0 ∧ win0_9.index t (1 : Fin 2) = t.val % 4)
theorem idx10 : ∀ t : Fin cfg0.N, win0_10.index t (0 : Fin 2) = 0 ∧ win0_10.index t (1 : Fin 2) = t.val % 4 :=
  (by decide +kernel : ∀ t : Fin grid0.N, win0_10.index t (0 : Fin 2) = 0 ∧ win0_10.index t (1 : Fin 2) = t.val % 4)
theorem idx11 : ∀ t : Fin cfg0.N, win0_11.index t (0 : Fin 2) = 0 ∧ win0_11.index t (1 : Fin 2) = t.val % 4 :=
  (by decide +kernel : ∀ t : Fin grid0.N, win0_11.index t (0 : Fin 2) = 0 ∧ win0_11.index t (1 : Fin 2) = t.val % 4)
theorem idx12 : ∀ t : Fin cfg0.N, win0_12.index t (0 : Fin 2) = 0 ∧ win0_12.index t (1 : Fin 2) = t.val % 4 :=
  (by decide +kernel : ∀ t : Fin grid0.N, win0_12.index t (0 : Fin 2) = 0 ∧ win0_12.index t (1 : Fin 2) = t.val % 4)
theorem idx13 : ∀ t : Fin cfg0.N, win0_13.index t (0 : Fin 2) = 0 ∧ win0_13.index t (1 : Fin 2) = t.val % 4 :=
  (by decide +kernel : ∀ t : Fin grid0.N, win0_13.index t (0 : Fin 2) = 0 ∧ win0_13.index t (1 : Fin 2) = t.val % 4)
theorem idx14 : ∀ t : Fin cfg0.N, win0_14.index t (0 : Fin 2) = 0 ∧ win0_14.index t (1 : Fin 2) = t.val % 4 :=
  (by decide +kernel : ∀ t : Fin grid0.N, win0_14.index t (0 : Fin 2) = 0 ∧ win0_14.index t (1 : Fin 2) = t.val % 4)
theorem idx15 : ∀ t : Fin cfg0.N, win0_15.index t (0 : Fin 2) = 0 ∧ win0_15.index t (1 : Fin 2) = t.val % 4 :=
  (by decide +kernel : ∀ t : Fin grid0.N, win0_15.index t (0 : Fin 2) = 0 ∧ win0_15.index t (1 : Fin 2) = t.val % 4)
theorem idx16 : ∀ t : Fin cfg0.N, win0_16.index t (0 : Fin 2) = 0 ∧ win0_16.index t (1 : Fin 2) = t.val % 4 :=
  (by decide +kernel : ∀ t : Fin grid0.N, win0_16.index t (0 : Fin 2) = 0 ∧ win0_16.index t (1 : Fin 2) = t.val % 4)

/-! ## Each input window's block, as entries of the arguments -/

/-- Window 0's block at a point: 512 rows of argument 0, all columns. -/
theorem rows0 (c : Dev nD) (t : Fin cfg0.N) (u : Fin 512) (k : Fin 1024) :
    (iblk m c 0 t : Vec Ideal S512x1024 .f32) (ix2 u k) = (m ((c : Thread nD τ).loc main_arg0) : Act) (ix2 (rowOf (pointRow t) u) k) := by
  obtain ⟨h0, h1⟩ := idx0 t
  unfold iblk
  rw [View.read_apply]
  refine (congrArg (V m c main_arg0 : S8192x1024.Idx → EReal) (?_ : _ = ix2 (rowOf (pointRow t) u) k)).trans
    (congrFun (V_main_arg0 m c) _)
  funext a; apply Fin.ext
  match a with
  | ⟨0, _⟩ => show win0_0.index t (0 : Fin 2) * 512 + 1 * u.val = 512 * (t.val / 4) + u.val; rw [h0]; omega
  | ⟨1, _⟩ => show win0_0.index t (1 : Fin 2) * 1024 + 1 * k.val = k.val; rw [h1]; omega

/-- Window 1's block at a point: 512 rows of argument 1, all columns. -/
theorem rows1 (c : Dev nD) (t : Fin cfg0.N) (u : Fin 512) (k : Fin 1024) :
    (iblk m c 1 t : Vec Ideal S512x1024 .f32) (ix2 u k) = (m ((c : Thread nD τ).loc main_arg1) : Act) (ix2 (rowOf (pointRow t) u) k) := by
  obtain ⟨h0, h1⟩ := idx1 t
  unfold iblk
  rw [View.read_apply]
  refine (congrArg (V m c main_arg1 : S8192x1024.Idx → EReal) (?_ : _ = ix2 (rowOf (pointRow t) u) k)).trans
    (congrFun (V_main_arg1 m c) _)
  funext a; apply Fin.ext
  match a with
  | ⟨0, _⟩ => show win0_1.index t (0 : Fin 2) * 512 + 1 * u.val = 512 * (t.val / 4) + u.val; rw [h0]; omega
  | ⟨1, _⟩ => show win0_1.index t (1 : Fin 2) * 1024 + 1 * k.val = k.val; rw [h1]; omega

/-- Window 2's block at a point: the point's [512, 256] tile of argument 2. -/
theorem tile2 (c : Dev nD) (t : Fin cfg0.N) (y : S512x256.Idx) :
    (iblk m c 2 t : Vec Ideal S512x256 .f32) y = (m ((c : Thread nD τ).loc main_arg2) : Act) (entryOf t y) := by
  obtain ⟨h0, h1⟩ := idx2 t
  unfold iblk
  rw [View.read_apply]
  refine (congrArg (V m c main_arg2 : S8192x1024.Idx → EReal) (?_ : _ = entryOf t y)).trans
    (congrFun (V_main_arg2 m c) _)
  funext a; apply Fin.ext
  match a with
  | ⟨0, _⟩ => show win0_2.index t (0 : Fin 2) * 512 + 1 * (y 0).val = 512 * (t.val / 4) + (y 0).val; rw [h0]; omega
  | ⟨1, _⟩ => show win0_2.index t (1 : Fin 2) * 256 + 1 * (y 1).val = 256 * (t.val % 4) + (y 1).val; rw [h1]; omega

/-- Window 3's block at a point: the point's [512, 256] tile of argument 3. -/
theorem tile3 (c : Dev nD) (t : Fin cfg0.N) (y : S512x256.Idx) :
    (iblk m c 3 t : Vec Ideal S512x256 .f32) y = (m ((c : Thread nD τ).loc main_arg3) : Act) (entryOf t y) := by
  obtain ⟨h0, h1⟩ := idx3 t
  unfold iblk
  rw [View.read_apply]
  refine (congrArg (V m c main_arg3 : S8192x1024.Idx → EReal) (?_ : _ = entryOf t y)).trans
    (congrFun (V_main_arg3 m c) _)
  funext a; apply Fin.ext
  match a with
  | ⟨0, _⟩ => show win0_3.index t (0 : Fin 2) * 512 + 1 * (y 0).val = 512 * (t.val / 4) + (y 0).val; rw [h0]; omega
  | ⟨1, _⟩ => show win0_3.index t (1 : Fin 2) * 256 + 1 * (y 1).val = 256 * (t.val % 4) + (y 1).val; rw [h1]; omega

/-- Window 4's block at a point: the point's [512, 256] tile of argument 4. -/
theorem tile4 (c : Dev nD) (t : Fin cfg0.N) (y : S512x256.Idx) :
    (iblk m c 4 t : Vec Ideal S512x256 .f32) y = (m ((c : Thread nD τ).loc main_arg4) : Act) (entryOf t y) := by
  obtain ⟨h0, h1⟩ := idx4 t
  unfold iblk
  rw [View.read_apply]
  refine (congrArg (V m c main_arg4 : S8192x1024.Idx → EReal) (?_ : _ = entryOf t y)).trans
    (congrFun (V_main_arg4 m c) _)
  funext a; apply Fin.ext
  match a with
  | ⟨0, _⟩ => show win0_4.index t (0 : Fin 2) * 512 + 1 * (y 0).val = 512 * (t.val / 4) + (y 0).val; rw [h0]; omega
  | ⟨1, _⟩ => show win0_4.index t (1 : Fin 2) * 256 + 1 * (y 1).val = 256 * (t.val % 4) + (y 1).val; rw [h1]; omega

/-- Window 5's block at a point: 256 columns of the transposed argument 5, that is 256 rows of the argument. -/
theorem cols5 (c : Dev nD) (t : Fin cfg0.N) (k : Fin 1024) (s : Fin 256) :
    (iblk m c 5 t : Vec Ideal S1024x256 .bf16) (ix2 k s) = (m ((c : Thread nD τ).loc main_arg5) : Mat) (ix2 (colOf (pointCol t) s) k) := by
  obtain ⟨h0, h1⟩ := idx5 t
  unfold iblk
  rw [View.read_apply]
  refine (congrArg (V m c main_v1 : S1024x1024.Idx → EReal) (?_ : _ = ix2 k (colOf (pointCol t) s))).trans
    (transposed5 m c k _)
  funext a; apply Fin.ext
  match a with
  | ⟨0, _⟩ => show win0_5.index t (0 : Fin 2) * 1024 + 1 * k.val = k.val; rw [h0]; omega
  | ⟨1, _⟩ => show win0_5.index t (1 : Fin 2) * 256 + 1 * s.val = 256 * (t.val % 4) + s.val; rw [h1]; omega

/-- Window 6's block at a point: 256 columns of the transposed argument 6, that is 256 rows of the argument. -/
theorem cols6 (c : Dev nD) (t : Fin cfg0.N) (k : Fin 1024) (s : Fin 256) :
    (iblk m c 6 t : Vec Ideal S1024x256 .bf16) (ix2 k s) = (m ((c : Thread nD τ).loc main_arg6) : Mat) (ix2 (colOf (pointCol t) s) k) := by
  obtain ⟨h0, h1⟩ := idx6 t
  unfold iblk
  rw [View.read_apply]
  refine (congrArg (V m c main_v3 : S1024x1024.Idx → EReal) (?_ : _ = ix2 k (colOf (pointCol t) s))).trans
    (transposed6 m c k _)
  funext a; apply Fin.ext
  match a with
  | ⟨0, _⟩ => show win0_6.index t (0 : Fin 2) * 1024 + 1 * k.val = k.val; rw [h0]; omega
  | ⟨1, _⟩ => show win0_6.index t (1 : Fin 2) * 256 + 1 * s.val = 256 * (t.val % 4) + s.val; rw [h1]; omega

/-- Window 7's block at a point: 256 columns of the transposed argument 7, that is 256 rows of the argument. -/
theorem cols7 (c : Dev nD) (t : Fin cfg0.N) (k : Fin 1024) (s : Fin 256) :
    (iblk m c 7 t : Vec Ideal S1024x256 .bf16) (ix2 k s) = (m ((c : Thread nD τ).loc main_arg7) : Mat) (ix2 (colOf (pointCol t) s) k) := by
  obtain ⟨h0, h1⟩ := idx7 t
  unfold iblk
  rw [View.read_apply]
  refine (congrArg (V m c main_v5 : S1024x1024.Idx → EReal) (?_ : _ = ix2 k (colOf (pointCol t) s))).trans
    (transposed7 m c k _)
  funext a; apply Fin.ext
  match a with
  | ⟨0, _⟩ => show win0_7.index t (0 : Fin 2) * 1024 + 1 * k.val = k.val; rw [h0]; omega
  | ⟨1, _⟩ => show win0_7.index t (1 : Fin 2) * 256 + 1 * s.val = 256 * (t.val % 4) + s.val; rw [h1]; omega

/-- Window 8's block at a point: 256 columns of the transposed argument 8, that is 256 rows of the argument. -/
theorem cols8 (c : Dev nD) (t : Fin cfg0.N) (k : Fin 1024) (s : Fin 256) :
    (iblk m c 8 t : Vec Ideal S1024x256 .bf16) (ix2 k s) = (m ((c : Thread nD τ).loc main_arg8) : Mat) (ix2 (colOf (pointCol t) s) k) := by
  obtain ⟨h0, h1⟩ := idx8 t
  unfold iblk
  rw [View.read_apply]
  refine (congrArg (V m c main_v7 : S1024x1024.Idx → EReal) (?_ : _ = ix2 k (colOf (pointCol t) s))).trans
    (transposed8 m c k _)
  funext a; apply Fin.ext
  match a with
  | ⟨0, _⟩ => show win0_8.index t (0 : Fin 2) * 1024 + 1 * k.val = k.val; rw [h0]; omega
  | ⟨1, _⟩ => show win0_8.index t (1 : Fin 2) * 256 + 1 * s.val = 256 * (t.val % 4) + s.val; rw [h1]; omega

/-- Window 9's block at a point: 256 columns of the transposed argument 9, that is 256 rows of the argument. -/
theorem cols9 (c : Dev nD) (t : Fin cfg0.N) (k : Fin 1024) (s : Fin 256) :
    (iblk m c 9 t : Vec Ideal S1024x256 .bf16) (ix2 k s) = (m ((c : Thread nD τ).loc main_arg9) : Mat) (ix2 (colOf (pointCol t) s) k) := by
  obtain ⟨h0, h1⟩ := idx9 t
  unfold iblk
  rw [View.read_apply]
  refine (congrArg (V m c main_v9 : S1024x1024.Idx → EReal) (?_ : _ = ix2 k (colOf (pointCol t) s))).trans
    (transposed9 m c k _)
  funext a; apply Fin.ext
  match a with
  | ⟨0, _⟩ => show win0_9.index t (0 : Fin 2) * 1024 + 1 * k.val = k.val; rw [h0]; omega
  | ⟨1, _⟩ => show win0_9.index t (1 : Fin 2) * 256 + 1 * s.val = 256 * (t.val % 4) + s.val; rw [h1]; omega

/-- Window 10's block at a point: 256 columns of the transposed argument 10, that is 256 rows of the argument. -/
theorem cols10 (c : Dev nD) (t : Fin cfg0.N) (k : Fin 1024) (s : Fin 256) :
    (iblk m c 10 t : Vec Ideal S1024x256 .bf16) (ix2 k s) = (m ((c : Thread nD τ).loc main_arg10) : Mat) (ix2 (colOf (pointCol t) s) k) := by
  obtain ⟨h0, h1⟩ := idx10 t
  unfold iblk
  rw [View.read_apply]
  refine (congrArg (V m c main_v11 : S1024x1024.Idx → EReal) (?_ : _ = ix2 k (colOf (pointCol t) s))).trans
    (transposed10 m c k _)
  funext a; apply Fin.ext
  match a with
  | ⟨0, _⟩ => show win0_10.index t (0 : Fin 2) * 1024 + 1 * k.val = k.val; rw [h0]; omega
  | ⟨1, _⟩ => show win0_10.index t (1 : Fin 2) * 256 + 1 * s.val = 256 * (t.val % 4) + s.val; rw [h1]; omega

/-- Window 11's block at a point: 256 columns of the transposed argument 11, that is 256 rows of the argument. -/
theorem cols11 (c : Dev nD) (t : Fin cfg0.N) (k : Fin 1024) (s : Fin 256) :
    (iblk m c 11 t : Vec Ideal S1024x256 .bf16) (ix2 k s) = (m ((c : Thread nD τ).loc main_arg11) : Mat) (ix2 (colOf (pointCol t) s) k) := by
  obtain ⟨h0, h1⟩ := idx11 t
  unfold iblk
  rw [View.read_apply]
  refine (congrArg (V m c main_v13 : S1024x1024.Idx → EReal) (?_ : _ = ix2 k (colOf (pointCol t) s))).trans
    (transposed11 m c k _)
  funext a; apply Fin.ext
  match a with
  | ⟨0, _⟩ => show win0_11.index t (0 : Fin 2) * 1024 + 1 * k.val = k.val; rw [h0]; omega
  | ⟨1, _⟩ => show win0_11.index t (1 : Fin 2) * 256 + 1 * s.val = 256 * (t.val % 4) + s.val; rw [h1]; omega

/-- Window 12's block at a point: 256 columns of the transposed argument 12, that is 256 rows of the argument. -/
theorem cols12 (c : Dev nD) (t : Fin cfg0.N) (k : Fin 1024) (s : Fin 256) :
    (iblk m c 12 t : Vec Ideal S1024x256 .bf16) (ix2 k s) = (m ((c : Thread nD τ).loc main_arg12) : Mat) (ix2 (colOf (pointCol t) s) k) := by
  obtain ⟨h0, h1⟩ := idx12 t
  unfold iblk
  rw [View.read_apply]
  refine (congrArg (V m c main_v15 : S1024x1024.Idx → EReal) (?_ : _ = ix2 k (colOf (pointCol t) s))).trans
    (transposed12 m c k _)
  funext a; apply Fin.ext
  match a with
  | ⟨0, _⟩ => show win0_12.index t (0 : Fin 2) * 1024 + 1 * k.val = k.val; rw [h0]; omega
  | ⟨1, _⟩ => show win0_12.index t (1 : Fin 2) * 256 + 1 * s.val = 256 * (t.val % 4) + s.val; rw [h1]; omega

/-- Window 13's block at a point: 256 entries of argument 13, as a row. -/
theorem biasCols13 (c : Dev nD) (t : Fin cfg0.N) (s : Fin 256) :
    (iblk m c 13 t : Vec Ideal S1x256 .f32) (ix2 (0 : Fin 1) s) = (m ((c : Thread nD τ).loc main_arg13) : Bias) (ix1 (colOf (pointCol t) s)) := by
  obtain ⟨h0, h1⟩ := idx13 t
  unfold iblk
  rw [View.read_apply]
  refine (congrArg (V m c main_v16 : S1x1024.Idx → EReal) (?_ : _ = ix2 (0 : Fin 1) (colOf (pointCol t) s))).trans
    (asRow13 m c _)
  funext a; apply Fin.ext
  match a with
  | ⟨0, _⟩ => show win0_13.index t (0 : Fin 2) * 1 + 1 * 0 = 0; rw [h0]
  | ⟨1, _⟩ => show win0_13.index t (1 : Fin 2) * 256 + 1 * s.val = 256 * (t.val % 4) + s.val; rw [h1]; omega

/-- Window 14's block at a point: 256 entries of argument 14, as a row. -/
theorem biasCols14 (c : Dev nD) (t : Fin cfg0.N) (s : Fin 256) :
    (iblk m c 14 t : Vec Ideal S1x256 .f32) (ix2 (0 : Fin 1) s) = (m ((c : Thread nD τ).loc main_arg14) : Bias) (ix1 (colOf (pointCol t) s)) := by
  obtain ⟨h0, h1⟩ := idx14 t
  unfold iblk
  rw [View.read_apply]
  refine (congrArg (V m c main_v17 : S1x1024.Idx → EReal) (?_ : _ = ix2 (0 : Fin 1) (colOf (pointCol t) s))).trans
    (asRow14 m c _)
  funext a; apply Fin.ext
  match a with
  | ⟨0, _⟩ => show win0_14.index t (0 : Fin 2) * 1 + 1 * 0 = 0; rw [h0]
  | ⟨1, _⟩ => show win0_14.index t (1 : Fin 2) * 256 + 1 * s.val = 256 * (t.val % 4) + s.val; rw [h1]; omega

/-- Window 15's block at a point: 256 entries of argument 15, as a row. -/
theorem biasCols15 (c : Dev nD) (t : Fin cfg0.N) (s : Fin 256) :
    (iblk m c 15 t : Vec Ideal S1x256 .f32) (ix2 (0 : Fin 1) s) = (m ((c : Thread nD τ).loc main_arg15) : Bias) (ix1 (colOf (pointCol t) s)) := by
  obtain ⟨h0, h1⟩ := idx15 t
  unfold iblk
  rw [View.read_apply]
  refine (congrArg (V m c main_v18 : S1x1024.Idx → EReal) (?_ : _ = ix2 (0 : Fin 1) (colOf (pointCol t) s))).trans
    (asRow15 m c _)
  funext a; apply Fin.ext
  match a with
  | ⟨0, _⟩ => show win0_15.index t (0 : Fin 2) * 1 + 1 * 0 = 0; rw [h0]
  | ⟨1, _⟩ => show win0_15.index t (1 : Fin 2) * 256 + 1 * s.val = 256 * (t.val % 4) + s.val; rw [h1]; omega

/-- Window 16's block at a point: 256 entries of argument 16, as a row. -/
theorem biasCols16 (c : Dev nD) (t : Fin cfg0.N) (s : Fin 256) :
    (iblk m c 16 t : Vec Ideal S1x256 .f32) (ix2 (0 : Fin 1) s) = (m ((c : Thread nD τ).loc main_arg16) : Bias) (ix1 (colOf (pointCol t) s)) := by
  obtain ⟨h0, h1⟩ := idx16 t
  unfold iblk
  rw [View.read_apply]
  refine (congrArg (V m c main_v19 : S1x1024.Idx → EReal) (?_ : _ = ix2 (0 : Fin 1) (colOf (pointCol t) s))).trans
    (asRow16 m c _)
  funext a; apply Fin.ext
  match a with
  | ⟨0, _⟩ => show win0_16.index t (0 : Fin 2) * 1 + 1 * 0 = 0; rw [h0]
  | ⟨1, _⟩ => show win0_16.index t (1 : Fin 2) * 256 + 1 * s.val = 256 * (t.val % 4) + s.val; rw [h1]; omega

/-! ## The gates at a point -/

/-- The input gate a point computes from its blocks is the gate of the whole arguments at the entries the block stands for. -/
theorem inputGate_at (c : Dev nD) (t : Fin cfg0.N) (u : Fin 512) (s : Fin 256) :
    gateBlk (iblk m c 0 t) (iblk m c 1 t) (iblk m c 5 t) (iblk m c 9 t) (iblk m c 13 t) u s
      = gate (m ((c : Thread nD τ).loc main_arg0) : Act) (m ((c : Thread nD τ).loc main_arg1) : Act) (m ((c : Thread nD τ).loc main_arg5) : Mat) (m ((c : Thread nD τ).loc main_arg9) : Mat) (m ((c : Thread nD τ).loc main_arg13) : Bias) (rowOf (pointRow t) u) (colOf (pointCol t) s) :=
  gateBlk_eq_gate _ _ _ _ _ _ _ _ _ _ (pointRow t) (pointCol t) (rows0 m c t) (rows1 m c t) (cols5 m c t) (cols9 m c t)
    (biasCols13 m c t) u s

/-- The forget gate a point computes from its blocks is the gate of the whole arguments at the entries the block stands for. -/
theorem forgetGate_at (c : Dev nD) (t : Fin cfg0.N) (u : Fin 512) (s : Fin 256) :
    gateBlk (iblk m c 0 t) (iblk m c 1 t) (iblk m c 6 t) (iblk m c 10 t) (iblk m c 14 t) u s
      = gate (m ((c : Thread nD τ).loc main_arg0) : Act) (m ((c : Thread nD τ).loc main_arg1) : Act) (m ((c : Thread nD τ).loc main_arg6) : Mat) (m ((c : Thread nD τ).loc main_arg10) : Mat) (m ((c : Thread nD τ).loc main_arg14) : Bias) (rowOf (pointRow t) u) (colOf (pointCol t) s) :=
  gateBlk_eq_gate _ _ _ _ _ _ _ _ _ _ (pointRow t) (pointCol t) (rows0 m c t) (rows1 m c t) (cols6 m c t) (cols10 m c t)
    (biasCols14 m c t) u s

/-- The output gate a point computes from its blocks is the gate of the whole arguments at the entries the block stands for. -/
theorem outputGate_at (c : Dev nD) (t : Fin cfg0.N) (u : Fin 512) (s : Fin 256) :
    gateBlk (iblk m c 0 t) (iblk m c 1 t) (iblk m c 7 t) (iblk m c 11 t) (iblk m c 15 t) u s
      = gate (m ((c : Thread nD τ).loc main_arg0) : Act) (m ((c : Thread nD τ).loc main_arg1) : Act) (m ((c : Thread nD τ).loc main_arg7) : Mat) (m ((c : Thread nD τ).loc main_arg11) : Mat) (m ((c : Thread nD τ).loc main_arg15) : Bias) (rowOf (pointRow t) u) (colOf (pointCol t) s) :=
  gateBlk_eq_gate _ _ _ _ _ _ _ _ _ _ (pointRow t) (pointCol t) (rows0 m c t) (rows1 m c t) (cols7 m c t) (cols11 m c t)
    (biasCols15 m c t) u s

/-- The cell gate a point computes from its blocks is the gate of the whole arguments at the entries the block stands for. -/
theorem cellGate_at (c : Dev nD) (t : Fin cfg0.N) (u : Fin 512) (s : Fin 256) :
    gateBlk (iblk m c 0 t) (iblk m c 1 t) (iblk m c 8 t) (iblk m c 12 t) (iblk m c 16 t) u s
      = gate (m ((c : Thread nD τ).loc main_arg0) : Act) (m ((c : Thread nD τ).loc main_arg1) : Act) (m ((c : Thread nD τ).loc main_arg8) : Mat) (m ((c : Thread nD τ).loc main_arg12) : Mat) (m ((c : Thread nD τ).loc main_arg16) : Bias) (rowOf (pointRow t) u) (colOf (pointCol t) s) :=
  gateBlk_eq_gate _ _ _ _ _ _ _ _ _ _ (pointRow t) (pointCol t) (rows0 m c t) (rows1 m c t) (cols8 m c t) (cols12 m c t)
    (biasCols16 m c t) u s

/-! ## The four results -/

/-- The cell's formulas respect equality of their arguments. -/
theorem hNew_congr {a1 a2 a3 a4 a5 a6 a7 b1 b2 b3 b4 b5 b6 b7 : EReal} (h1 : a1 = b1) (h2 : a2 = b2) (h3 : a3 = b3)
    (h4 : a4 = b4) (h5 : a5 = b5) (h6 : a6 = b6) (h7 : a7 = b7) :
    hNew a1 a2 a3 a4 a5 a6 a7 = hNew b1 b2 b3 b4 b5 b6 b7 := by
  subst h1 h2 h3 h4 h5 h6 h7; rfl
theorem cNew_congr {a1 a2 a3 a4 a5 b1 b2 b3 b4 b5 : EReal} (h1 : a1 = b1) (h2 : a2 = b2) (h3 : a3 = b3)
    (h4 : a4 = b4) (h5 : a5 = b5) : cNew a1 a2 a3 a4 a5 = cNew b1 b2 b3 b4 b5 := by
  subst h1 h2 h3 h4 h5; rfl
theorem nNew_congr {a1 a2 a3 a4 b1 b2 b3 b4 : EReal} (h1 : a1 = b1) (h2 : a2 = b2) (h3 : a3 = b3) (h4 : a4 = b4) :
    nNew a1 a2 a3 a4 = nNew b1 b2 b3 b4 := by
  subst h1 h2 h3 h4; rfl
theorem mNew_congr {a1 a2 a3 b1 b2 b3 : EReal} (h1 : a1 = b1) (h2 : a2 = b2) (h3 : a3 = b3) :
    mNew a1 a2 a3 = mNew b1 b2 b3 := by
  subst h1 h2 h3; rfl

/-! ### Output window 17: the hidden -/

/-- A block position of window 17 at a point, as a position in the array. -/
theorem emb17 (t : Fin cfg0.N) (y : S512x256.Idx) : ((cfg0.win 17).blk t).view.emb y = entryOf t y := by
  obtain ⟨h0, h1⟩ := idx17 t
  funext a; apply Fin.ext
  match a with
  | ⟨0, _⟩ => show win0_17.index t (0 : Fin 2) * 512 + 1 * (y 0).val = 512 * (t.val / 4) + (y 0).val; rw [h0]; omega
  | ⟨1, _⟩ => show win0_17.index t (1 : Fin 2) * 256 + 1 * (y 1).val = 256 * (t.val % 4) + (y 1).val; rw [h1]; omega

/-- What a point writes back to window 17 is its block of the hidden of the whole arguments. -/
theorem hidden_flushed (c : Dev nD) (t : Fin cfg0.N) :
    (dats m 0 c).flushed 17 t = ((cfg0.win 17).blk t).view.read (Elt Ideal)
      (Hout (m ((c : Thread nD τ).loc main_arg0) : Act) (m ((c : Thread nD τ).loc main_arg1) : Act) (m ((c : Thread nD τ).loc main_arg2) : Act) (m ((c : Thread nD τ).loc main_arg3) : Act) (m ((c : Thread nD τ).loc main_arg4) : Act) (m ((c : Thread nD τ).loc main_arg5) : Mat) (m ((c : Thread nD τ).loc main_arg6) : Mat) (m ((c : Thread nD τ).loc main_arg7) : Mat) (m ((c : Thread nD τ).loc main_arg8) : Mat) (m ((c : Thread nD τ).loc main_arg9) : Mat) (m ((c : Thread nD τ).loc main_arg10) : Mat) (m ((c : Thread nD τ).loc main_arg11) : Mat) (m ((c : Thread nD τ).loc main_arg12) : Mat) (m ((c : Thread nD τ).loc main_arg13) : Bias) (m ((c : Thread nD τ).loc main_arg14) : Bias) (m ((c : Thread nD τ).loc main_arg15) : Bias) (m ((c : Thread nD τ).loc main_arg16) : Bias)) := by
  rw [flushed17]
  funext y
  rw [View.read_apply, emb17 t y]
  refine (hidden_blk _ _ _ _ _ _ _ _ _ _ _ _ _ _ _ _ _ y).trans ?_
  show hNew _ _ _ _ _ _ _ = hNew _ _ _ _ _ _ _
  exact hNew_congr (inputGate_at m c t (y 0) (y 1)) (forgetGate_at m c t (y 0) (y 1)) (outputGate_at m c t (y 0) (y 1))
    (cellGate_at m c t (y 0) (y 1)) (tile2 m c t y) (tile3 m c t y) (tile4 m c t y)

/-- An array position is in a point's block of window 17 when each coordinate is in the block's range. -/
theorem mem_blk17 (t : Fin cfg0.N) (i : S8192x1024.Idx) :
    i ∈ ((cfg0.win 17).blk t).view.set ↔ ∀ a : Fin 2, win0_17.index t a * S512x256.size a ≤ (i a).val
      ∧ (i a).val < win0_17.index t a * S512x256.size a + S512x256.size a := by
  show i ∈ ((View.whole main_v20_0).slice (win0_17.rect t)).set ↔ _
  rw [View.set_slice_whole, Rect.mem_set_unit]
  exact Iff.rfl

/-- Every array position is in the block of the point at its row block and column block. -/
theorem cover17 (i : S8192x1024.Idx) :
    ∃ t : Fin cfg0.N, (cfg0.win 17).flush t = true ∧ i ∈ ((cfg0.win 17).blk t).view.set := by
  have hi0 : (i 0).val < 8192 := (i 0).isLt
  have hi1 : (i 1).val < 1024 := (i 1).isLt
  obtain ⟨t, ht⟩ : ∃ t : Fin cfg0.N, t.val = 4 * ((i 0).val / 512) + (i 1).val / 256 :=
    ⟨⟨4 * ((i 0).val / 512) + (i 1).val / 256, by rw [N64]; omega⟩, rfl⟩
  obtain ⟨h0, h1⟩ := idx17 t
  refine ⟨t, flush0_17 t, ?_⟩
  rw [mem_blk17]
  intro a
  match a with
  | ⟨0, _⟩ =>
    show win0_17.index t (0 : Fin 2) * 512 ≤ (i 0).val ∧ (i 0).val < win0_17.index t (0 : Fin 2) * 512 + 512
    rw [h0, ht]; omega
  | ⟨1, _⟩ =>
    show win0_17.index t (1 : Fin 2) * 256 ≤ (i 1).val ∧ (i 1).val < win0_17.index t (1 : Fin 2) * 256 + 256
    rw [h1, ht]; omega

/-- So the array ends holding the hidden of the whole arguments. -/
theorem hidden_final (c : Dev nD) : (dats m 0 c).arrAt 17 cfg0.N
    = (Hout (m ((c : Thread nD τ).loc main_arg0) : Act) (m ((c : Thread nD τ).loc main_arg1) : Act) (m ((c : Thread nD τ).loc main_arg2) : Act) (m ((c : Thread nD τ).loc main_arg3) : Act) (m ((c : Thread nD τ).loc main_arg4) : Act) (m ((c : Thread nD τ).loc main_arg5) : Mat) (m ((c : Thread nD τ).loc main_arg6) : Mat) (m ((c : Thread nD τ).loc main_arg7) : Mat) (m ((c : Thread nD τ).loc main_arg8) : Mat) (m ((c : Thread nD τ).loc main_arg9) : Mat) (m ((c : Thread nD τ).loc main_arg10) : Mat) (m ((c : Thread nD τ).loc main_arg11) : Mat) (m ((c : Thread nD τ).loc main_arg12) : Mat) (m ((c : Thread nD τ).loc main_arg13) : Bias) (m ((c : Thread nD τ).loc main_arg14) : Bias) (m ((c : Thread nD τ).loc main_arg15) : Bias) (m ((c : Thread nD τ).loc main_arg16) : Bias)) :=
  (dats m 0 c).arrAt_eq_of_cover 17 _ (fun t _ => hidden_flushed m c t) cover17

/-! ### Output window 18: the cellState -/

/-- A block position of window 18 at a point, as a position in the array. -/
theorem emb18 (t : Fin cfg0.N) (y : S512x256.Idx) : ((cfg0.win 18).blk t).view.emb y = entryOf t y := by
  obtain ⟨h0, h1⟩ := idx18 t
  funext a; apply Fin.ext
  match a with
  | ⟨0, _⟩ => show win0_18.index t (0 : Fin 2) * 512 + 1 * (y 0).val = 512 * (t.val / 4) + (y 0).val; rw [h0]; omega
  | ⟨1, _⟩ => show win0_18.index t (1 : Fin 2) * 256 + 1 * (y 1).val = 256 * (t.val % 4) + (y 1).val; rw [h1]; omega

/-- What a point writes back to window 18 is its block of the cellState of the whole arguments. -/
theorem cellState_flushed (c : Dev nD) (t : Fin cfg0.N) :
    (dats m 0 c).flushed 18 t = ((cfg0.win 18).blk t).view.read (Elt Ideal)
      (Cout (m ((c : Thread nD τ).loc main_arg0) : Act) (m ((c : Thread nD τ).loc main_arg1) : Act) (m ((c : Thread nD τ).loc main_arg2) : Act) (m ((c : Thread nD τ).loc main_arg4) : Act) (m ((c : Thread nD τ).loc main_arg5) : Mat) (m ((c : Thread nD τ).loc main_arg6) : Mat) (m ((c : Thread nD τ).loc main_arg8) : Mat) (m ((c : Thread nD τ).loc main_arg9) : Mat) (m ((c : Thread nD τ).loc main_arg10) : Mat) (m ((c : Thread nD τ).loc main_arg12) : Mat) (m ((c : Thread nD τ).loc main_arg13) : Bias) (m ((c : Thread nD τ).loc main_arg14) : Bias) (m ((c : Thread nD τ).loc main_arg16) : Bias)) := by
  rw [flushed18]
  funext y
  rw [View.read_apply, emb18 t y]
  refine (cellState_blk _ _ _ _ _ _ _ _ _ _ _ _ _ _ _ _ _ y).trans ?_
  show cNew _ _ _ _ _ = cNew _ _ _ _ _
  exact cNew_congr (inputGate_at m c t (y 0) (y 1)) (forgetGate_at m c t (y 0) (y 1)) (cellGate_at m c t (y 0) (y 1))
    (tile2 m c t y) (tile4 m c t y)

/-- An array position is in a point's block of window 18 when each coordinate is in the block's range. -/
theorem mem_blk18 (t : Fin cfg0.N) (i : S8192x1024.Idx) :
    i ∈ ((cfg0.win 18).blk t).view.set ↔ ∀ a : Fin 2, win0_18.index t a * S512x256.size a ≤ (i a).val
      ∧ (i a).val < win0_18.index t a * S512x256.size a + S512x256.size a := by
  show i ∈ ((View.whole main_v20_1).slice (win0_18.rect t)).set ↔ _
  rw [View.set_slice_whole, Rect.mem_set_unit]
  exact Iff.rfl

/-- Every array position is in the block of the point at its row block and column block. -/
theorem cover18 (i : S8192x1024.Idx) :
    ∃ t : Fin cfg0.N, (cfg0.win 18).flush t = true ∧ i ∈ ((cfg0.win 18).blk t).view.set := by
  have hi0 : (i 0).val < 8192 := (i 0).isLt
  have hi1 : (i 1).val < 1024 := (i 1).isLt
  obtain ⟨t, ht⟩ : ∃ t : Fin cfg0.N, t.val = 4 * ((i 0).val / 512) + (i 1).val / 256 :=
    ⟨⟨4 * ((i 0).val / 512) + (i 1).val / 256, by rw [N64]; omega⟩, rfl⟩
  obtain ⟨h0, h1⟩ := idx18 t
  refine ⟨t, flush0_18 t, ?_⟩
  rw [mem_blk18]
  intro a
  match a with
  | ⟨0, _⟩ =>
    show win0_18.index t (0 : Fin 2) * 512 ≤ (i 0).val ∧ (i 0).val < win0_18.index t (0 : Fin 2) * 512 + 512
    rw [h0, ht]; omega
  | ⟨1, _⟩ =>
    show win0_18.index t (1 : Fin 2) * 256 ≤ (i 1).val ∧ (i 1).val < win0_18.index t (1 : Fin 2) * 256 + 256
    rw [h1, ht]; omega

/-- So the array ends holding the cellState of the whole arguments. -/
theorem cellState_final (c : Dev nD) : (dats m 0 c).arrAt 18 cfg0.N
    = (Cout (m ((c : Thread nD τ).loc main_arg0) : Act) (m ((c : Thread nD τ).loc main_arg1) : Act) (m ((c : Thread nD τ).loc main_arg2) : Act) (m ((c : Thread nD τ).loc main_arg4) : Act) (m ((c : Thread nD τ).loc main_arg5) : Mat) (m ((c : Thread nD τ).loc main_arg6) : Mat) (m ((c : Thread nD τ).loc main_arg8) : Mat) (m ((c : Thread nD τ).loc main_arg9) : Mat) (m ((c : Thread nD τ).loc main_arg10) : Mat) (m ((c : Thread nD τ).loc main_arg12) : Mat) (m ((c : Thread nD τ).loc main_arg13) : Bias) (m ((c : Thread nD τ).loc main_arg14) : Bias) (m ((c : Thread nD τ).loc main_arg16) : Bias)) :=
  (dats m 0 c).arrAt_eq_of_cover 18 _ (fun t _ => cellState_flushed m c t) cover18

/-! ### Output window 19: the normalizer -/

/-- A block position of window 19 at a point, as a position in the array. -/
theorem emb19 (t : Fin cfg0.N) (y : S512x256.Idx) : ((cfg0.win 19).blk t).view.emb y = entryOf t y := by
  obtain ⟨h0, h1⟩ := idx19 t
  funext a; apply Fin.ext
  match a with
  | ⟨0, _⟩ => show win0_19.index t (0 : Fin 2) * 512 + 1 * (y 0).val = 512 * (t.val / 4) + (y 0).val; rw [h0]; omega
  | ⟨1, _⟩ => show win0_19.index t (1 : Fin 2) * 256 + 1 * (y 1).val = 256 * (t.val % 4) + (y 1).val; rw [h1]; omega

/-- What a point writes back to window 19 is its block of the normalizer of the whole arguments. -/
theorem normalizer_flushed (c : Dev nD) (t : Fin cfg0.N) :
    (dats m 0 c).flushed 19 t = ((cfg0.win 19).blk t).view.read (Elt Ideal)
      (Nout (m ((c : Thread nD τ).loc main_arg0) : Act) (m ((c : Thread nD τ).loc main_arg1) : Act) (m ((c : Thread nD τ).loc main_arg3) : Act) (m ((c : Thread nD τ).loc main_arg4) : Act) (m ((c : Thread nD τ).loc main_arg5) : Mat) (m ((c : Thread nD τ).loc main_arg6) : Mat) (m ((c : Thread nD τ).loc main_arg9) : Mat) (m ((c : Thread nD τ).loc main_arg10) : Mat) (m ((c : Thread nD τ).loc main_arg13) : Bias) (m ((c : Thread nD τ).loc main_arg14) : Bias)) := by
  rw [flushed19]
  funext y
  rw [View.read_apply, emb19 t y]
  refine (normalizer_blk _ _ _ _ _ _ _ _ _ _ _ _ _ _ _ _ _ y).trans ?_
  show nNew _ _ _ _ = nNew _ _ _ _
  exact nNew_congr (inputGate_at m c t (y 0) (y 1)) (forgetGate_at m c t (y 0) (y 1)) (tile3 m c t y) (tile4 m c t y)

/-- An array position is in a point's block of window 19 when each coordinate is in the block's range. -/
theorem mem_blk19 (t : Fin cfg0.N) (i : S8192x1024.Idx) :
    i ∈ ((cfg0.win 19).blk t).view.set ↔ ∀ a : Fin 2, win0_19.index t a * S512x256.size a ≤ (i a).val
      ∧ (i a).val < win0_19.index t a * S512x256.size a + S512x256.size a := by
  show i ∈ ((View.whole main_v20_2).slice (win0_19.rect t)).set ↔ _
  rw [View.set_slice_whole, Rect.mem_set_unit]
  exact Iff.rfl

/-- Every array position is in the block of the point at its row block and column block. -/
theorem cover19 (i : S8192x1024.Idx) :
    ∃ t : Fin cfg0.N, (cfg0.win 19).flush t = true ∧ i ∈ ((cfg0.win 19).blk t).view.set := by
  have hi0 : (i 0).val < 8192 := (i 0).isLt
  have hi1 : (i 1).val < 1024 := (i 1).isLt
  obtain ⟨t, ht⟩ : ∃ t : Fin cfg0.N, t.val = 4 * ((i 0).val / 512) + (i 1).val / 256 :=
    ⟨⟨4 * ((i 0).val / 512) + (i 1).val / 256, by rw [N64]; omega⟩, rfl⟩
  obtain ⟨h0, h1⟩ := idx19 t
  refine ⟨t, flush0_19 t, ?_⟩
  rw [mem_blk19]
  intro a
  match a with
  | ⟨0, _⟩ =>
    show win0_19.index t (0 : Fin 2) * 512 ≤ (i 0).val ∧ (i 0).val < win0_19.index t (0 : Fin 2) * 512 + 512
    rw [h0, ht]; omega
  | ⟨1, _⟩ =>
    show win0_19.index t (1 : Fin 2) * 256 ≤ (i 1).val ∧ (i 1).val < win0_19.index t (1 : Fin 2) * 256 + 256
    rw [h1, ht]; omega

/-- So the array ends holding the normalizer of the whole arguments. -/
theorem normalizer_final (c : Dev nD) : (dats m 0 c).arrAt 19 cfg0.N
    = (Nout (m ((c : Thread nD τ).loc main_arg0) : Act) (m ((c : Thread nD τ).loc main_arg1) : Act) (m ((c : Thread nD τ).loc main_arg3) : Act) (m ((c : Thread nD τ).loc main_arg4) : Act) (m ((c : Thread nD τ).loc main_arg5) : Mat) (m ((c : Thread nD τ).loc main_arg6) : Mat) (m ((c : Thread nD τ).loc main_arg9) : Mat) (m ((c : Thread nD τ).loc main_arg10) : Mat) (m ((c : Thread nD τ).loc main_arg13) : Bias) (m ((c : Thread nD τ).loc main_arg14) : Bias)) :=
  (dats m 0 c).arrAt_eq_of_cover 19 _ (fun t _ => normalizer_flushed m c t) cover19

/-! ### Output window 20: the stabilizer -/

/-- A block position of window 20 at a point, as a position in the array. -/
theorem emb20 (t : Fin cfg0.N) (y : S512x256.Idx) : ((cfg0.win 20).blk t).view.emb y = entryOf t y := by
  obtain ⟨h0, h1⟩ := idx20 t
  funext a; apply Fin.ext
  match a with
  | ⟨0, _⟩ => show win0_20.index t (0 : Fin 2) * 512 + 1 * (y 0).val = 512 * (t.val / 4) + (y 0).val; rw [h0]; omega
  | ⟨1, _⟩ => show win0_20.index t (1 : Fin 2) * 256 + 1 * (y 1).val = 256 * (t.val % 4) + (y 1).val; rw [h1]; omega

/-- What a point writes back to window 20 is its block of the stabilizer of the whole arguments. -/
theorem stabilizer_flushed (c : Dev nD) (t : Fin cfg0.N) :
    (dats m 0 c).flushed 20 t = ((cfg0.win 20).blk t).view.read (Elt Ideal)
      (Mout (m ((c : Thread nD τ).loc main_arg0) : Act) (m ((c : Thread nD τ).loc main_arg1) : Act) (m ((c : Thread nD τ).loc main_arg4) : Act) (m ((c : Thread nD τ).loc main_arg5) : Mat) (m ((c : Thread nD τ).loc main_arg6) : Mat) (m ((c : Thread nD τ).loc main_arg9) : Mat) (m ((c : Thread nD τ).loc main_arg10) : Mat) (m ((c : Thread nD τ).loc main_arg13) : Bias) (m ((c : Thread nD τ).loc main_arg14) : Bias)) := by
  rw [flushed20]
  funext y
  rw [View.read_apply, emb20 t y]
  refine (stabilizer_blk _ _ _ _ _ _ _ _ _ _ _ _ _ _ _ _ _ y).trans ?_
  show mNew _ _ _ = mNew _ _ _
  exact mNew_congr (inputGate_at m c t (y 0) (y 1)) (forgetGate_at m c t (y 0) (y 1)) (tile4 m c t y)

/-- An array position is in a point's block of window 20 when each coordinate is in the block's range. -/
theorem mem_blk20 (t : Fin cfg0.N) (i : S8192x1024.Idx) :
    i ∈ ((cfg0.win 20).blk t).view.set ↔ ∀ a : Fin 2, win0_20.index t a * S512x256.size a ≤ (i a).val
      ∧ (i a).val < win0_20.index t a * S512x256.size a + S512x256.size a := by
  show i ∈ ((View.whole main_v20_3).slice (win0_20.rect t)).set ↔ _
  rw [View.set_slice_whole, Rect.mem_set_unit]
  exact Iff.rfl

/-- Every array position is in the block of the point at its row block and column block. -/
theorem cover20 (i : S8192x1024.Idx) :
    ∃ t : Fin cfg0.N, (cfg0.win 20).flush t = true ∧ i ∈ ((cfg0.win 20).blk t).view.set := by
  have hi0 : (i 0).val < 8192 := (i 0).isLt
  have hi1 : (i 1).val < 1024 := (i 1).isLt
  obtain ⟨t, ht⟩ : ∃ t : Fin cfg0.N, t.val = 4 * ((i 0).val / 512) + (i 1).val / 256 :=
    ⟨⟨4 * ((i 0).val / 512) + (i 1).val / 256, by rw [N64]; omega⟩, rfl⟩
  obtain ⟨h0, h1⟩ := idx20 t
  refine ⟨t, flush0_20 t, ?_⟩
  rw [mem_blk20]
  intro a
  match a with
  | ⟨0, _⟩ =>
    show win0_20.index t (0 : Fin 2) * 512 ≤ (i 0).val ∧ (i 0).val < win0_20.index t (0 : Fin 2) * 512 + 512
    rw [h0, ht]; omega
  | ⟨1, _⟩ =>
    show win0_20.index t (1 : Fin 2) * 256 ≤ (i 1).val ∧ (i 1).val < win0_20.index t (1 : Fin 2) * 256 + 256
    rw [h1, ht]; omega

/-- So the array ends holding the stabilizer of the whole arguments. -/
theorem stabilizer_final (c : Dev nD) : (dats m 0 c).arrAt 20 cfg0.N
    = (Mout (m ((c : Thread nD τ).loc main_arg0) : Act) (m ((c : Thread nD τ).loc main_arg1) : Act) (m ((c : Thread nD τ).loc main_arg4) : Act) (m ((c : Thread nD τ).loc main_arg5) : Mat) (m ((c : Thread nD τ).loc main_arg6) : Mat) (m ((c : Thread nD τ).loc main_arg9) : Mat) (m ((c : Thread nD τ).loc main_arg10) : Mat) (m ((c : Thread nD τ).loc main_arg13) : Bias) (m ((c : Thread nD τ).loc main_arg14) : Bias)) :=
  (dats m 0 c).arrAt_eq_of_cover 20 _ (fun t _ => stabilizer_flushed m c t) cover20

/-! ## The run, read -/

/-- Every weakly fair execution of the kernel's program ends with the four result arrays at the cell of the argument
    arrays, and the arguments unchanged. -/
theorem run : θ_run defs (onTc (τ := τ) (main (F := Ideal))) ⟨m, fun _ => 0, ρ⟩ fun r => ∀ c : Dev nD,
      r.2.mem ((c : Thread nD τ).loc main_v20_0) = (Hout (m ((c : Thread nD τ).loc main_arg0) : Act) (m ((c : Thread nD τ).loc main_arg1) : Act) (m ((c : Thread nD τ).loc main_arg2) : Act) (m ((c : Thread nD τ).loc main_arg3) : Act) (m ((c : Thread nD τ).loc main_arg4) : Act) (m ((c : Thread nD τ).loc main_arg5) : Mat) (m ((c : Thread nD τ).loc main_arg6) : Mat) (m ((c : Thread nD τ).loc main_arg7) : Mat) (m ((c : Thread nD τ).loc main_arg8) : Mat) (m ((c : Thread nD τ).loc main_arg9) : Mat) (m ((c : Thread nD τ).loc main_arg10) : Mat) (m ((c : Thread nD τ).loc main_arg11) : Mat) (m ((c : Thread nD τ).loc main_arg12) : Mat) (m ((c : Thread nD τ).loc main_arg13) : Bias) (m ((c : Thread nD τ).loc main_arg14) : Bias) (m ((c : Thread nD τ).loc main_arg15) : Bias) (m ((c : Thread nD τ).loc main_arg16) : Bias))
      ∧ r.2.mem ((c : Thread nD τ).loc main_v20_1) = (Cout (m ((c : Thread nD τ).loc main_arg0) : Act) (m ((c : Thread nD τ).loc main_arg1) : Act) (m ((c : Thread nD τ).loc main_arg2) : Act) (m ((c : Thread nD τ).loc main_arg4) : Act) (m ((c : Thread nD τ).loc main_arg5) : Mat) (m ((c : Thread nD τ).loc main_arg6) : Mat) (m ((c : Thread nD τ).loc main_arg8) : Mat) (m ((c : Thread nD τ).loc main_arg9) : Mat) (m ((c : Thread nD τ).loc main_arg10) : Mat) (m ((c : Thread nD τ).loc main_arg12) : Mat) (m ((c : Thread nD τ).loc main_arg13) : Bias) (m ((c : Thread nD τ).loc main_arg14) : Bias) (m ((c : Thread nD τ).loc main_arg16) : Bias))
      ∧ r.2.mem ((c : Thread nD τ).loc main_v20_2) = (Nout (m ((c : Thread nD τ).loc main_arg0) : Act) (m ((c : Thread nD τ).loc main_arg1) : Act) (m ((c : Thread nD τ).loc main_arg3) : Act) (m ((c : Thread nD τ).loc main_arg4) : Act) (m ((c : Thread nD τ).loc main_arg5) : Mat) (m ((c : Thread nD τ).loc main_arg6) : Mat) (m ((c : Thread nD τ).loc main_arg9) : Mat) (m ((c : Thread nD τ).loc main_arg10) : Mat) (m ((c : Thread nD τ).loc main_arg13) : Bias) (m ((c : Thread nD τ).loc main_arg14) : Bias))
      ∧ r.2.mem ((c : Thread nD τ).loc main_v20_3) = (Mout (m ((c : Thread nD τ).loc main_arg0) : Act) (m ((c : Thread nD τ).loc main_arg1) : Act) (m ((c : Thread nD τ).loc main_arg4) : Act) (m ((c : Thread nD τ).loc main_arg5) : Mat) (m ((c : Thread nD τ).loc main_arg6) : Mat) (m ((c : Thread nD τ).loc main_arg9) : Mat) (m ((c : Thread nD τ).loc main_arg10) : Mat) (m ((c : Thread nD τ).loc main_arg13) : Bias) (m ((c : Thread nD τ).loc main_arg14) : Bias))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (hidden_final m c), (h c).2.1.trans (cellState_final m c),
      (h c).2.2.1.trans (normalizer_final m c), (h c).2.2.2.1.trans (stabilizer_final m c), (h c).2.2.2.2⟩)
    (Cert.KernelIdeal.Value.run_blocks m ρ)

end Cert.KernelIdeal.Whole

end
-- ==== Proof.RefCell.lean ====
/-
  The reference program computes the cell of Spec.lean. Its run is read one operation at a time through the generated
  read-at-an-index lemmas: each gate is two contractions of an activation row against a row of a weight matrix (the
  program transposes the weights and contracts along the transposed axis, which reads the same entries), their sum,
  the bias of the hidden unit, and the clip; the logistic function appears expanded as 1 / (1 + exp (−x)) with the
  literal 1.0; everything after the gates is entry-wise and is the cell's formulas term for term.
-/
import proofs.«161524_j979252544372_1_alg».proof.Proof.Gen.ReferenceIdeal.Read
import proofs.«161524_j979252544372_1_alg».proof.Proof.Spec

noncomputable section

open scoped BigOperators

namespace Cert.ReferenceIdeal.Cell

open Cert.ReferenceIdeal Cert.ReferenceIdeal.Read Idealize.ShloMosaic Idealize.ShloMosaic.ValueIdx Cert.Slstm

/-! ## The gates -/

/-- The reference's input gate, entry by entry: its two products against the transposed weights, added, plus the bias
    broadcast over the batch, clipped, is `gate` of the same arrays. -/
theorem inputGate (x0 x1 : (⟨S8192x1024, .f32⟩ : BufTy).Contents (Elt Ideal)) (x5 x9 : (⟨S1024x1024, .f32⟩ : BufTy).Contents (Elt Ideal))
    (x13 : (⟨S1024, .f32⟩ : BufTy).Contents (Elt Ideal)) (j : S8192x1024.Idx) :
    val_main_v8 (F := Ideal) x0 x1 x5 x9 x13 j = gate x0 x1 x5 x9 x13 (j 0) (j 1) := by
  have el (k : Fin 1024) : lidx_main_v1 j k = ix2 (j 0) k := funext fun a => by
    match a with | ⟨0, _⟩ => rfl | ⟨1, _⟩ => rfl
  have er (k : Fin 1024) : idx_main_v0 (ridx_main_v1 j k) = ix2 (j 1) k := funext fun a => by
    match a with | ⟨0, _⟩ => rfl | ⟨1, _⟩ => rfl
  have el' (k : Fin 1024) : lidx_main_v3 j k = ix2 (j 0) k := funext fun a => by
    match a with | ⟨0, _⟩ => rfl | ⟨1, _⟩ => rfl
  have er' (k : Fin 1024) : idx_main_v2 (ridx_main_v3 j k) = ix2 (j 1) k := funext fun a => by
    match a with | ⟨0, _⟩ => rfl | ⟨1, _⟩ => rfl
  have eb : idx_main_v5 (idx_main_v6 j) = ix1 (j 1) := funext fun a => by
    match a with | ⟨0, _⟩ => rfl
  rw [val_main_v8_apply, val_main_call0_v4_apply, val_main_call0_v3_apply, val_main_cst_0_apply,
    val_main_call0_v2_apply, val_main_call0_v1_apply, val_main_call0_v0_apply, val_main_cst_apply,
    val_main_v7_apply, val_main_v4_apply, val_main_v1_apply, val_main_v3_apply,
    val_main_v6_apply, val_main_v5_apply]
  simp only [val_main_v0_apply, val_main_v2_apply, el, er, el', er', eb]
  rfl

/-- The reference's forget gate, entry by entry: its two products against the transposed weights, added, plus the bias
    broadcast over the batch, clipped, is `gate` of the same arrays. -/
theorem forgetGate (x0 x1 : (⟨S8192x1024, .f32⟩ : BufTy).Contents (Elt Ideal)) (x6 x10 : (⟨S1024x1024, .f32⟩ : BufTy).Contents (Elt Ideal))
    (x14 : (⟨S1024, .f32⟩ : BufTy).Contents (Elt Ideal)) (j : S8192x1024.Idx) :
    val_main_v17 (F := Ideal) x0 x1 x6 x10 x14 j = gate x0 x1 x6 x10 x14 (j 0) (j 1) := by
  have el (k : Fin 1024) : lidx_main_v10 j k = ix2 (j 0) k := funext fun a => by
    match a with | ⟨0, _⟩ => rfl | ⟨1, _⟩ => rfl
  have er (k : Fin 1024) : idx_main_v9 (ridx_main_v10 j k) = ix2 (j 1) k := funext fun a => by
    match a with | ⟨0, _⟩ => rfl | ⟨1, _⟩ => rfl
  have el' (k : Fin 1024) : lidx_main_v12 j k = ix2 (j 0) k := funext fun a => by
    match a with | ⟨0, _⟩ => rfl | ⟨1, _⟩ => rfl
  have er' (k : Fin 1024) : idx_main_v11 (ridx_main_v12 j k) = ix2 (j 1) k := funext fun a => by
    match a with | ⟨0, _⟩ => rfl | ⟨1, _⟩ => rfl
  have eb : idx_main_v14 (idx_main_v15 j) = ix1 (j 1) := funext fun a => by
    match a with | ⟨0, _⟩ => rfl
  rw [val_main_v17_apply, val_main_call1_v4_apply, val_main_call1_v3_apply, val_main_cst_2_apply,
    val_main_call1_v2_apply, val_main_call1_v1_apply, val_main_call1_v0_apply, val_main_cst_1_apply,
    val_main_v16_apply, val_main_v13_apply, val_main_v10_apply, val_main_v12_apply,
    val_main_v15_apply, val_main_v14_apply]
  simp only [val_main_v9_apply, val_main_v11_apply, el, er, el', er', eb]
  rfl

/-- The reference's output gate, entry by entry: its two products against the transposed weights, added, plus the bias
    broadcast over the batch, clipped, is `gate` of the same arrays. -/
theorem outputGate (x0 x1 : (⟨S8192x1024, .f32⟩ : BufTy).Contents (Elt Ideal)) (x7 x11 : (⟨S1024x1024, .f32⟩ : BufTy).Contents (Elt Ideal))
    (x15 : (⟨S1024, .f32⟩ : BufTy).Contents (Elt Ideal)) (j : S8192x1024.Idx) :
    val_main_v26 (F := Ideal) x0 x1 x7 x11 x15 j = gate x0 x1 x7 x11 x15 (j 0) (j 1) := by
  have el (k : Fin 1024) : lidx_main_v19 j k = ix2 (j 0) k := funext fun a => by
    match a with | ⟨0, _⟩ => rfl | ⟨1, _⟩ => rfl
  have er (k : Fin 1024) : idx_main_v18 (ridx_main_v19 j k) = ix2 (j 1) k := funext fun a => by
    match a with | ⟨0, _⟩ => rfl | ⟨1, _⟩ => rfl
  have el' (k : Fin 1024) : lidx_main_v21 j k = ix2 (j 0) k := funext fun a => by
    match a with | ⟨0, _⟩ => rfl | ⟨1, _⟩ => rfl
  have er' (k : Fin 1024) : idx_main_v20 (ridx_main_v21 j k) = ix2 (j 1) k := funext fun a => by
    match a with | ⟨0, _⟩ => rfl | ⟨1, _⟩ => rfl
  have eb : idx_main_v23 (idx_main_v24 j) = ix1 (j 1) := funext fun a => by
    match a with | ⟨0, _⟩ => rfl
  rw [val_main_v26_apply, val_main_call2_v4_apply, val_main_call2_v3_apply, val_main_cst_4_apply,
    val_main_call2_v2_apply, val_main_call2_v1_apply, val_main_call2_v0_apply, val_main_cst_3_apply,
    val_main_v25_apply, val_main_v22_apply, val_main_v19_apply, val_main_v21_apply,
    val_main_v24_apply, val_main_v23_apply]
  simp only [val_main_v18_apply, val_main_v20_apply, el, er, el', er', eb]
  rfl

/-- The reference's cell gate, entry by entry: its two products against the transposed weights, added, plus the bias
    broadcast over the batch, clipped, is `gate` of the same arrays. -/
theorem cellGate (x0 x1 : (⟨S8192x1024, .f32⟩ : BufTy).Contents (Elt Ideal)) (x8 x12 : (⟨S1024x1024, .f32⟩ : BufTy).Contents (Elt Ideal))
    (x16 : (⟨S1024, .f32⟩ : BufTy).Contents (Elt Ideal)) (j : S8192x1024.Idx) :
    val_main_v35 (F := Ideal) x0 x1 x8 x12 x16 j = gate x0 x1 x8 x12 x16 (j 0) (j 1) := by
  have el (k : Fin 1024) : lidx_main_v28 j k = ix2 (j 0) k := funext fun a => by
    match a with | ⟨0, _⟩ => rfl | ⟨1, _⟩ => rfl
  have er (k : Fin 1024) : idx_main_v27 (ridx_main_v28 j k) = ix2 (j 1) k := funext fun a => by
    match a with | ⟨0, _⟩ => rfl | ⟨1, _⟩ => rfl
  have el' (k : Fin 1024) : lidx_main_v30 j k = ix2 (j 0) k := funext fun a => by
    match a with | ⟨0, _⟩ => rfl | ⟨1, _⟩ => rfl
  have er' (k : Fin 1024) : idx_main_v29 (ridx_main_v30 j k) = ix2 (j 1) k := funext fun a => by
    match a with | ⟨0, _⟩ => rfl | ⟨1, _⟩ => rfl
  have eb : idx_main_v32 (idx_main_v33 j) = ix1 (j 1) := funext fun a => by
    match a with | ⟨0, _⟩ => rfl
  rw [val_main_v35_apply, val_main_call3_v4_apply, val_main_call3_v3_apply, val_main_cst_6_apply,
    val_main_call3_v2_apply, val_main_call3_v1_apply, val_main_call3_v0_apply, val_main_cst_5_apply,
    val_main_v34_apply, val_main_v31_apply, val_main_v28_apply, val_main_v30_apply,
    val_main_v33_apply, val_main_v32_apply]
  simp only [val_main_v27_apply, val_main_v29_apply, el, er, el', er', eb]
  rfl

/-! ## After the gates -/

/-- The logistic function as the program spells it: the quotient of the literal 1.0 by the literal plus exp of the negation. -/
theorem sigmoid_expanded (g : Ideal .f32) :
    FloatOps.hostDivf (FloatOps.ofBits .f32 0x3F800000#32)
      (FloatOps.addf (FloatOps.ofBits .f32 0x3F800000#32) (FloatOps.hostUnary .exp (FloatOps.hostNegf g))) = Ideal.logistic g :=
  logistic_expanded g

/-- The reference's new stabilizer is the cell's. -/
theorem stabilizer_eq (x0 x1 x4 : (⟨S8192x1024, .f32⟩ : BufTy).Contents (Elt Ideal))
    (x5 x6 x9 x10 : (⟨S1024x1024, .f32⟩ : BufTy).Contents (Elt Ideal))
    (x13 x14 : (⟨S1024, .f32⟩ : BufTy).Contents (Elt Ideal)) :
    val_main_v49 (F := Ideal) x0 x1 x4 x5 x6 x9 x10 x13 x14 = Mout x0 x1 x4 x5 x6 x9 x10 x13 x14 := by
  funext j
  simp only [
    val_main_v36_apply, val_main_v37_apply, val_main_v38_apply, val_main_v39_apply, val_main_v40_apply, val_main_v41_apply,
    val_main_v42_apply, val_main_v43_apply, val_main_v44_apply, val_main_v45_apply, val_main_v46_apply, val_main_v47_apply,
    val_main_v48_apply, val_main_v49_apply, val_main_v50_apply, val_main_v51_apply, val_main_v52_apply, val_main_v53_apply,
    val_main_v54_apply, val_main_v55_apply, val_main_v56_apply, val_main_v57_apply, val_main_v58_apply, val_main_v59_apply,
    val_main_v60_apply, val_main_v61_apply, val_main_v62_apply, val_main_v63_apply, val_main_v64_apply, val_main_v65_apply,
    val_main_v66_apply, val_main_v67_apply, val_main_v68_apply, val_main_v69_apply, val_main_v70_apply, val_main_v71_apply,
    val_main_v72_apply, val_main_v73_apply, val_main_cst_7_apply, val_main_cst_8_apply, val_main_cst_9_apply, val_main_cst_10_apply,
    val_main_cst_11_apply, val_main_cst_12_apply, val_main_cst_13_apply, val_main_cst_14_apply, val_main_call4_v0_apply, val_main_call4_v1_apply,
    val_main_call4_v2_apply, val_main_call4_v3_apply, val_main_call4_v4_apply,
    inputGate, forgetGate, outputGate, cellGate, sigmoid_expanded]
  rfl

/-- The reference's new normalizer is the cell's. -/
theorem normalizer_eq (x0 x1 x3 x4 : (⟨S8192x1024, .f32⟩ : BufTy).Contents (Elt Ideal))
    (x5 x6 x9 x10 : (⟨S1024x1024, .f32⟩ : BufTy).Contents (Elt Ideal))
    (x13 x14 : (⟨S1024, .f32⟩ : BufTy).Contents (Elt Ideal)) :
    val_main_v62 (F := Ideal) x0 x1 x3 x4 x5 x6 x9 x10 x13 x14 = Nout x0 x1 x3 x4 x5 x6 x9 x10 x13 x14 := by
  funext j
  simp only [
    val_main_v36_apply, val_main_v37_apply, val_main_v38_apply, val_main_v39_apply, val_main_v40_apply, val_main_v41_apply,
    val_main_v42_apply, val_main_v43_apply, val_main_v44_apply, val_main_v45_apply, val_main_v46_apply, val_main_v47_apply,
    val_main_v48_apply, val_main_v49_apply, val_main_v50_apply, val_main_v51_apply, val_main_v52_apply, val_main_v53_apply,
    val_main_v54_apply, val_main_v55_apply, val_main_v56_apply, val_main_v57_apply, val_main_v58_apply, val_main_v59_apply,
    val_main_v60_apply, val_main_v61_apply, val_main_v62_apply, val_main_v63_apply, val_main_v64_apply, val_main_v65_apply,
    val_main_v66_apply, val_main_v67_apply, val_main_v68_apply, val_main_v69_apply, val_main_v70_apply, val_main_v71_apply,
    val_main_v72_apply, val_main_v73_apply, val_main_cst_7_apply, val_main_cst_8_apply, val_main_cst_9_apply, val_main_cst_10_apply,
    val_main_cst_11_apply, val_main_cst_12_apply, val_main_cst_13_apply, val_main_cst_14_apply, val_main_call4_v0_apply, val_main_call4_v1_apply,
    val_main_call4_v2_apply, val_main_call4_v3_apply, val_main_call4_v4_apply,
    inputGate, forgetGate, outputGate, cellGate, sigmoid_expanded]
  rfl

/-- The reference's new cell state is the cell's. -/
theorem cellState_eq (x0 x1 x2 x4 : (⟨S8192x1024, .f32⟩ : BufTy).Contents (Elt Ideal))
    (x5 x6 x8 x9 x10 x12 : (⟨S1024x1024, .f32⟩ : BufTy).Contents (Elt Ideal))
    (x13 x14 x16 : (⟨S1024, .f32⟩ : BufTy).Contents (Elt Ideal)) :
    val_main_v60 (F := Ideal) x0 x1 x2 x4 x5 x6 x8 x9 x10 x12 x13 x14 x16 = Cout x0 x1 x2 x4 x5 x6 x8 x9 x10 x12 x13 x14 x16 := by
  funext j
  simp only [
    val_main_v36_apply, val_main_v37_apply, val_main_v38_apply, val_main_v39_apply, val_main_v40_apply, val_main_v41_apply,
    val_main_v42_apply, val_main_v43_apply, val_main_v44_apply, val_main_v45_apply, val_main_v46_apply, val_main_v47_apply,
    val_main_v48_apply, val_main_v49_apply, val_main_v50_apply, val_main_v51_apply, val_main_v52_apply, val_main_v53_apply,
    val_main_v54_apply, val_main_v55_apply, val_main_v56_apply, val_main_v57_apply, val_main_v58_apply, val_main_v59_apply,
    val_main_v60_apply, val_main_v61_apply, val_main_v62_apply, val_main_v63_apply, val_main_v64_apply, val_main_v65_apply,
    val_main_v66_apply, val_main_v67_apply, val_main_v68_apply, val_main_v69_apply, val_main_v70_apply, val_main_v71_apply,
    val_main_v72_apply, val_main_v73_apply, val_main_cst_7_apply, val_main_cst_8_apply, val_main_cst_9_apply, val_main_cst_10_apply,
    val_main_cst_11_apply, val_main_cst_12_apply, val_main_cst_13_apply, val_main_cst_14_apply, val_main_call4_v0_apply, val_main_call4_v1_apply,
    val_main_call4_v2_apply, val_main_call4_v3_apply, val_main_call4_v4_apply,
    inputGate, forgetGate, outputGate, cellGate, sigmoid_expanded]
  rfl

/-- The reference's new hidden state is the cell's. -/
theorem hidden_eq (x0 x1 x2 x3 x4 : (⟨S8192x1024, .f32⟩ : BufTy).Contents (Elt Ideal))
    (x5 x6 x7 x8 x9 x10 x11 x12 : (⟨S1024x1024, .f32⟩ : BufTy).Contents (Elt Ideal))
    (x13 x14 x15 x16 : (⟨S1024, .f32⟩ : BufTy).Contents (Elt Ideal)) :
    val_main_v73 (F := Ideal) x0 x1 x2 x3 x4 x5 x6 x7 x8 x9 x10 x11 x12 x13 x14 x15 x16 = Hout x0 x1 x2 x3 x4 x5 x6 x7 x8 x9 x10 x11 x12 x13 x14 x15 x16 := by
  funext j
  simp only [
    val_main_v36_apply, val_main_v37_apply, val_main_v38_apply, val_main_v39_apply, val_main_v40_apply, val_main_v41_apply,
    val_main_v42_apply, val_main_v43_apply, val_main_v44_apply, val_main_v45_apply, val_main_v46_apply, val_main_v47_apply,
    val_main_v48_apply, val_main_v49_apply, val_main_v50_apply, val_main_v51_apply, val_main_v52_apply, val_main_v53_apply,
    val_main_v54_apply, val_main_v55_apply, val_main_v56_apply, val_main_v57_apply, val_main_v58_apply, val_main_v59_apply,
    val_main_v60_apply, val_main_v61_apply, val_main_v62_apply, val_main_v63_apply, val_main_v64_apply, val_main_v65_apply,
    val_main_v66_apply, val_main_v67_apply, val_main_v68_apply, val_main_v69_apply, val_main_v70_apply, val_main_v71_apply,
    val_main_v72_apply, val_main_v73_apply, val_main_cst_7_apply, val_main_cst_8_apply, val_main_cst_9_apply, val_main_cst_10_apply,
    val_main_cst_11_apply, val_main_cst_12_apply, val_main_cst_13_apply, val_main_cst_14_apply, val_main_call4_v0_apply, val_main_call4_v1_apply,
    val_main_call4_v2_apply, val_main_call4_v3_apply, val_main_call4_v4_apply,
    inputGate, forgetGate, outputGate, cellGate, sigmoid_expanded]
  rfl

end Cert.ReferenceIdeal.Cell

end
-- ==== Proof.lean ====
/-
  The kernel — one fused launch over a 16 × 4 grid computing an exponentially gated recurrent cell with a log-domain
  stabilizer — against the plain array program for the same cell, over the extended reals.

  Both programs compute, for every batch row and hidden unit, four gates

      clip_{[-50, 50]} ( x · W_gᵀ + h · R_gᵀ + b_g ),      g ∈ {input, forget, output, cell},

  and from them and the previous cell state, normalizer and stabilizer the new hidden state, cell state, normalizer and
  stabilizer (Proof/Spec.lean states the formulas). The kernel transposes the weights on the host, tiles the batch axis
  by 512 and the hidden axis by 256, and forms each gate tile by two block products over the whole contraction axis; the
  reference contracts whole arrays. Over the extended reals a change of float format is the identity and a contraction
  is one sum over the shared axis in its order, so the two sides are the same function of the arguments, entry by entry,
  with no law of arithmetic used beyond that: Proof/KernelRun.lean reads the kernel's run to that function (block
  arithmetic in Proof/KernelCell.lean, KernelBlock.lean, GateBlocks.lean), Proof/RefCell.lean the reference's run. The
  one difference in spelling is the logistic function, a single operation in the kernel and 1 / (1 + exp (−x)) with the
  literal 1.0 in the reference; the literal denotes 1.

  The three frame claims are the generated runs; the idealization rewrote nothing, so the preservation claim is trivial.
-/
import proofs.«161524_j979252544372_1_alg».proof.Defs
import proofs.«161524_j979252544372_1_alg».proof.Proof.Gen.Kernel
import proofs.«161524_j979252544372_1_alg».proof.Proof.Gen.Kernel.Skeleton
import proofs.«161524_j979252544372_1_alg».proof.Proof.Gen.Kernel.Launch
import proofs.«161524_j979252544372_1_alg».proof.Proof.Gen.Kernel.Points
import proofs.«161524_j979252544372_1_alg».proof.Proof.Gen.Kernel.Frame
import proofs.«161524_j979252544372_1_alg».proof.Proof.Gen.KernelIdeal
import proofs.«161524_j979252544372_1_alg».proof.Proof.Gen.KernelIdeal.Skeleton
import proofs.«161524_j979252544372_1_alg».proof.Proof.Gen.KernelIdeal.Launch
import proofs.«161524_j979252544372_1_alg».proof.Proof.Gen.KernelIdeal.Points
import proofs.«161524_j979252544372_1_alg».proof.Proof.Gen.KernelIdeal.Frame
import proofs.«161524_j979252544372_1_alg».proof.Proof.Gen.ReferenceIdeal
import proofs.«161524_j979252544372_1_alg».proof.Proof.Gen.Pre_finite_inputs
import proofs.«161524_j979252544372_1_alg».proof.Proof.Gen.KernelIdeal.Value
import proofs.«161524_j979252544372_1_alg».proof.Proof.Gen.ReferenceIdeal.Run
import proofs.«161524_j979252544372_1_alg».proof.Proof.Gen.ReferenceIdeal.Read
import proofs.«161524_j979252544372_1_alg».proof.Proof.KernelRun
import proofs.«161524_j979252544372_1_alg».proof.Proof.RefCell
import Idealize.ShloMosaic.Adequacy
import Idealize.ShloMosaic.Init

noncomputable section

namespace Cert.Proof

open Idealize.ShloMosaic Idealize.ShloMosaic.TcCoe Idealize.SL.Sem Cert.Slstm

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its post with the five results dropped. -/
theorem frame_reference : Cert.frame_ReferenceIdeal := fun m ρ _ =>
  (θ_run Cert.ReferenceIdeal.defs _ _).mono (fun _ h c => (h c).2.2.2.2.2)
    (Cert.ReferenceIdeal.Value.run (F := Ideal) m ρ)

/-- The cell's four result functions respect equality of the argument arrays. -/
theorem Hout_congr {x0 x1 x2 x3 x4 : Act} {x5 x6 x7 x8 x9 x10 x11 x12 : Mat} {x13 x14 x15 x16 : Bias}
    {y0 y1 y2 y3 y4 : Act} {y5 y6 y7 y8 y9 y10 y11 y12 : Mat} {y13 y14 y15 y16 : Bias}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) :
    Hout x0 x1 x2 x3 x4 x5 x6 x7 x8 x9 x10 x11 x12 x13 x14 x15 x16 = Hout y0 y1 y2 y3 y4 y5 y6 y7 y8 y9 y10 y11 y12 y13 y14 y15 y16 := by
  subst h0 h1 h2 h3 h4 h5 h6 h7 h8 h9 h10 h11 h12 h13 h14 h15 h16; rfl
theorem Cout_congr {x0 x1 x2 x4 : Act} {x5 x6 x8 x9 x10 x12 : Mat} {x13 x14 x16 : Bias}
    {y0 y1 y2 y4 : Act} {y5 y6 y8 y9 y10 y12 : Mat} {y13 y14 y16 : Bias}
    (h0 : x0 = y0) (h1 : x1 = y1) (h2 : x2 = y2) (h4 : x4 = y4) (h5 : x5 = y5) (h6 : x6 = y6) (h8 : x8 = y8) (h9 : x9 = y9) (h10 : x10 = y10) (h12 : x12 = y12) (h13 : x13 = y13) (h14 : x14 = y14) (h16 : x16 = y16) :
    Cout x0 x1 x2 x4 x5 x6 x8 x9 x10 x12 x13 x14 x16 = Cout y0 y1 y2 y4 y5 y6 y8 y9 y10 y12 y13 y14 y16 := by
  subst h0 h1 h2 h4 h5 h6 h8 h9 h10 h12 h13 h14 h16; rfl
theorem Nout_congr {x0 x1 x3 x4 : Act} {x5 x6 x9 x10 : Mat} {x13 x14 : Bias}
    {y0 y1 y3 y4 : Act} {y5 y6 y9 y10 : Mat} {y13 y14 : Bias}
    (h0 : x0 = y0) (h1 : x1 = y1) (h3 : x3 = y3) (h4 : x4 = y4) (h5 : x5 = y5) (h6 : x6 = y6) (h9 : x9 = y9) (h10 : x10 = y10) (h13 : x13 = y13) (h14 : x14 = y14) :
    Nout x0 x1 x3 x4 x5 x6 x9 x10 x13 x14 = Nout y0 y1 y3 y4 y5 y6 y9 y10 y13 y14 := by
  subst h0 h1 h3 h4 h5 h6 h9 h10 h13 h14; rfl
theorem Mout_congr {x0 x1 x4 : Act} {x5 x6 x9 x10 : Mat} {x13 x14 : Bias}
    {y0 y1 y4 : Act} {y5 y6 y9 y10 : Mat} {y13 y14 : Bias}
    (h0 : x0 = y0) (h1 : x1 = y1) (h4 : x4 = y4) (h5 : x5 = y5) (h6 : x6 = y6) (h9 : x9 = y9) (h10 : x10 = y10) (h13 : x13 = y13) (h14 : x14 = y14) :
    Mout x0 x1 x4 x5 x6 x9 x10 x13 x14 = Mout y0 y1 y4 y5 y6 y9 y10 y13 y14 := by
  subst h0 h1 h4 h5 h6 h9 h10 h13 h14; rfl

/-- Both runs end with the hidden state (returned twice), the cell state, the normalizer and the stabilizer at the cell
    of the argument arrays: the kernel's by its tiles, the reference's operation by operation, from arguments that agree. -/
theorem algebraic : Cert.algebraic_KernelIdeal_ReferenceIdeal := by
  intro m ρ m' ρ' _ hagree
  refine ⟨fun c => Hout (m ((c.tc : Thread Cert.KernelIdeal.nD Cert.KernelIdeal.τ).loc Cert.KernelIdeal.main_arg0) : Act) (m ((c.tc : Thread Cert.KernelIdeal.nD Cert.KernelIdeal.τ).loc Cert.KernelIdeal.main_arg1) : Act) (m ((c.tc : Thread Cert.KernelIdeal.nD Cert.KernelIdeal.τ).loc Cert.KernelIdeal.main_arg2) : Act) (m ((c.tc : Thread Cert.KernelIdeal.nD Cert.KernelIdeal.τ).loc Cert.KernelIdeal.main_arg3) : Act) (m ((c.tc : Thread Cert.KernelIdeal.nD Cert.KernelIdeal.τ).loc Cert.KernelIdeal.main_arg4) : Act) (m ((c.tc : Thread Cert.KernelIdeal.nD Cert.KernelIdeal.τ).loc Cert.KernelIdeal.main_arg5) : Mat) (m ((c.tc : Thread Cert.KernelIdeal.nD Cert.KernelIdeal.τ).loc Cert.KernelIdeal.main_arg6) : Mat) (m ((c.tc : Thread Cert.KernelIdeal.nD Cert.KernelIdeal.τ).loc Cert.KernelIdeal.main_arg7) : Mat) (m ((c.tc : Thread Cert.KernelIdeal.nD Cert.KernelIdeal.τ).loc Cert.KernelIdeal.main_arg8) : Mat) (m ((c.tc : Thread Cert.KernelIdeal.nD Cert.KernelIdeal.τ).loc Cert.KernelIdeal.main_arg9) : Mat) (m ((c.tc : Thread Cert.KernelIdeal.nD Cert.KernelIdeal.τ).loc Cert.KernelIdeal.main_arg10) : Mat) (m ((c.tc : Thread Cert.KernelIdeal.nD Cert.KernelIdeal.τ).loc Cert.KernelIdeal.main_arg11) : Mat) (m ((c.tc : Thread Cert.KernelIdeal.nD Cert.KernelIdeal.τ).loc Cert.KernelIdeal.main_arg12) : Mat) (m ((c.tc : Thread Cert.KernelIdeal.nD Cert.KernelIdeal.τ).loc Cert.KernelIdeal.main_arg13) : Bias) (m ((c.tc : Thread Cert.KernelIdeal.nD Cert.KernelIdeal.τ).loc Cert.KernelIdeal.main_arg14) : Bias) (m ((c.tc : Thread Cert.KernelIdeal.nD Cert.KernelIdeal.τ).loc Cert.KernelIdeal.main_arg15) : Bias) (m ((c.tc : Thread Cert.KernelIdeal.nD Cert.KernelIdeal.τ).loc Cert.KernelIdeal.main_arg16) : Bias),
    fun c => Hout (m ((c.tc : Thread Cert.KernelIdeal.nD Cert.KernelIdeal.τ).loc Cert.KernelIdeal.main_arg0) : Act) (m ((c.tc : Thread Cert.KernelIdeal.nD Cert.KernelIdeal.τ).loc Cert.KernelIdeal.main_arg1) : Act) (m ((c.tc : Thread Cert.KernelIdeal.nD Cert.KernelIdeal.τ).loc Cert.KernelIdeal.main_arg2) : Act) (m ((c.tc : Thread Cert.KernelIdeal.nD Cert.KernelIdeal.τ).loc Cert.KernelIdeal.main_arg3) : Act) (m ((c.tc : Thread Cert.KernelIdeal.nD Cert.KernelIdeal.τ).loc Cert.KernelIdeal.main_arg4) : Act) (m ((c.tc : Thread Cert.KernelIdeal.nD Cert.KernelIdeal.τ).loc Cert.KernelIdeal.main_arg5) : Mat) (m ((c.tc : Thread Cert.KernelIdeal.nD Cert.KernelIdeal.τ).loc Cert.KernelIdeal.main_arg6) : Mat) (m ((c.tc : Thread Cert.KernelIdeal.nD Cert.KernelIdeal.τ).loc Cert.KernelIdeal.main_arg7) : Mat) (m ((c.tc : Thread Cert.KernelIdeal.nD Cert.KernelIdeal.τ).loc Cert.KernelIdeal.main_arg8) : Mat) (m ((c.tc : Thread Cert.KernelIdeal.nD Cert.KernelIdeal.τ).loc Cert.KernelIdeal.main_arg9) : Mat) (m ((c.tc : Thread Cert.KernelIdeal.nD Cert.KernelIdeal.τ).loc Cert.KernelIdeal.main_arg10) : Mat) (m ((c.tc : Thread Cert.KernelIdeal.nD Cert.KernelIdeal.τ).loc Cert.KernelIdeal.main_arg11) : Mat) (m ((c.tc : Thread Cert.KernelIdeal.nD Cert.KernelIdeal.τ).loc Cert.KernelIdeal.main_arg12) : Mat) (m ((c.tc : Thread Cert.KernelIdeal.nD Cert.KernelIdeal.τ).loc Cert.KernelIdeal.main_arg13) : Bias) (m ((c.tc : Thread Cert.KernelIdeal.nD Cert.KernelIdeal.τ).loc Cert.KernelIdeal.main_arg14) : Bias) (m ((c.tc : Thread Cert.KernelIdeal.nD Cert.KernelIdeal.τ).loc Cert.KernelIdeal.main_arg15) : Bias) (m ((c.tc : Thread Cert.KernelIdeal.nD Cert.KernelIdeal.τ).loc Cert.KernelIdeal.main_arg16) : Bias),
    fun c => Cout (m ((c.tc : Thread Cert.KernelIdeal.nD Cert.KernelIdeal.τ).loc Cert.KernelIdeal.main_arg0) : Act) (m ((c.tc : Thread Cert.KernelIdeal.nD Cert.KernelIdeal.τ).loc Cert.KernelIdeal.main_arg1) : Act) (m ((c.tc : Thread Cert.KernelIdeal.nD Cert.KernelIdeal.τ).loc Cert.KernelIdeal.main_arg2) : Act) (m ((c.tc : Thread Cert.KernelIdeal.nD Cert.KernelIdeal.τ).loc Cert.KernelIdeal.main_arg4) : Act) (m ((c.tc : Thread Cert.KernelIdeal.nD Cert.KernelIdeal.τ).loc Cert.KernelIdeal.main_arg5) : Mat) (m ((c.tc : Thread Cert.KernelIdeal.nD Cert.KernelIdeal.τ).loc Cert.KernelIdeal.main_arg6) : Mat) (m ((c.tc : Thread Cert.KernelIdeal.nD Cert.KernelIdeal.τ).loc Cert.KernelIdeal.main_arg8) : Mat) (m ((c.tc : Thread Cert.KernelIdeal.nD Cert.KernelIdeal.τ).loc Cert.KernelIdeal.main_arg9) : Mat) (m ((c.tc : Thread Cert.KernelIdeal.nD Cert.KernelIdeal.τ).loc Cert.KernelIdeal.main_arg10) : Mat) (m ((c.tc : Thread Cert.KernelIdeal.nD Cert.KernelIdeal.τ).loc Cert.KernelIdeal.main_arg12) : Mat) (m ((c.tc : Thread Cert.KernelIdeal.nD Cert.KernelIdeal.τ).loc Cert.KernelIdeal.main_arg13) : Bias) (m ((c.tc : Thread Cert.KernelIdeal.nD Cert.KernelIdeal.τ).loc Cert.KernelIdeal.main_arg14) : Bias) (m ((c.tc : Thread Cert.KernelIdeal.nD Cert.KernelIdeal.τ).loc Cert.KernelIdeal.main_arg16) : Bias),
    fun c => Nout (m ((c.tc : Thread Cert.KernelIdeal.nD Cert.KernelIdeal.τ).loc Cert.KernelIdeal.main_arg0) : Act) (m ((c.tc : Thread Cert.KernelIdeal.nD Cert.KernelIdeal.τ).loc Cert.KernelIdeal.main_arg1) : Act) (m ((c.tc : Thread Cert.KernelIdeal.nD Cert.KernelIdeal.τ).loc Cert.KernelIdeal.main_arg3) : Act) (m ((c.tc : Thread Cert.KernelIdeal.nD Cert.KernelIdeal.τ).loc Cert.KernelIdeal.main_arg4) : Act) (m ((c.tc : Thread Cert.KernelIdeal.nD Cert.KernelIdeal.τ).loc Cert.KernelIdeal.main_arg5) : Mat) (m ((c.tc : Thread Cert.KernelIdeal.nD Cert.KernelIdeal.τ).loc Cert.KernelIdeal.main_arg6) : Mat) (m ((c.tc : Thread Cert.KernelIdeal.nD Cert.KernelIdeal.τ).loc Cert.KernelIdeal.main_arg9) : Mat) (m ((c.tc : Thread Cert.KernelIdeal.nD Cert.KernelIdeal.τ).loc Cert.KernelIdeal.main_arg10) : Mat) (m ((c.tc : Thread Cert.KernelIdeal.nD Cert.KernelIdeal.τ).loc Cert.KernelIdeal.main_arg13) : Bias) (m ((c.tc : Thread Cert.KernelIdeal.nD Cert.KernelIdeal.τ).loc Cert.KernelIdeal.main_arg14) : Bias),
    fun c => Mout (m ((c.tc : Thread Cert.KernelIdeal.nD Cert.KernelIdeal.τ).loc Cert.KernelIdeal.main_arg0) : Act) (m ((c.tc : Thread Cert.KernelIdeal.nD Cert.KernelIdeal.τ).loc Cert.KernelIdeal.main_arg1) : Act) (m ((c.tc : Thread Cert.KernelIdeal.nD Cert.KernelIdeal.τ).loc Cert.KernelIdeal.main_arg4) : Act) (m ((c.tc : Thread Cert.KernelIdeal.nD Cert.KernelIdeal.τ).loc Cert.KernelIdeal.main_arg5) : Mat) (m ((c.tc : Thread Cert.KernelIdeal.nD Cert.KernelIdeal.τ).loc Cert.KernelIdeal.main_arg6) : Mat) (m ((c.tc : Thread Cert.KernelIdeal.nD Cert.KernelIdeal.τ).loc Cert.KernelIdeal.main_arg9) : Mat) (m ((c.tc : Thread Cert.KernelIdeal.nD Cert.KernelIdeal.τ).loc Cert.KernelIdeal.main_arg10) : Mat) (m ((c.tc : Thread Cert.KernelIdeal.nD Cert.KernelIdeal.τ).loc Cert.KernelIdeal.main_arg13) : Bias) (m ((c.tc : Thread Cert.KernelIdeal.nD Cert.KernelIdeal.τ).loc Cert.KernelIdeal.main_arg14) : Bias), ?_, ?_⟩
  · exact (θ_run Cert.KernelIdeal.defs _ _).mono
      (fun r h c => ⟨(h c).1, (h c).1, (h c).2.1, (h c).2.2.1, (h c).2.2.2.1, (h c).2.2.2.2⟩)
      (Cert.KernelIdeal.Whole.run m ρ)
  · refine (θ_run Cert.ReferenceIdeal.defs _ _).mono (fun r h c => ?_)
      (Cert.ReferenceIdeal.Value.run (F := Ideal) m' ρ')
    obtain ⟨a0, a1, a2, a3, a4, a5, a6, a7, a8, a9, a10, a11, a12, a13, a14, a15, a16⟩ := hagree c
    refine ⟨(h c).1.trans ?_, (h c).2.1.trans ?_, (h c).2.2.1.trans ?_, (h c).2.2.2.1.trans ?_,
      (h c).2.2.2.2.1.trans ?_, (h c).2.2.2.2.2⟩
    · exact ((Cert.ReferenceIdeal.Read.val_main_v73_eq m' c).trans
        (Cert.ReferenceIdeal.Cell.hidden_eq (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15))
          (m' ((c.tc : Thread Cert.ReferenceIdeal.nD Cert.ReferenceIdeal.τ).loc Cert.ReferenceIdeal.main_arg16)))).trans
        (Hout_congr a0 a1 a2 a3 a4 a5 a6 a7 a8 a9 a10 a11 a12 a13 a14 a15 a16)
    · exact ((Cert.ReferenceIdeal.Read.val_main_v73_eq m' c).trans
        (Cert.ReferenceIdeal.Cell.hidden_eq (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15))
          (m' ((c.tc : Thread Cert.ReferenceIdeal.nD Cert.ReferenceIdeal.τ).loc Cert.ReferenceIdeal.main_arg16)))).trans
        (Hout_congr a0 a1 a2 a3 a4 a5 a6 a7 a8 a9 a10 a11 a12 a13 a14 a15 a16)
    · exact ((Cert.ReferenceIdeal.Read.val_main_v60_eq m' c).trans
        (Cert.ReferenceIdeal.Cell.cellState_eq (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg16)))).trans
        (Cout_congr a0 a1 a2 a4 a5 a6 a8 a9 a10 a12 a13 a14 a16)
    · exact ((Cert.ReferenceIdeal.Read.val_main_v62_eq m' c).trans
        (Cert.ReferenceIdeal.Cell.normalizer_eq (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14)))).trans
        (Nout_congr a0 a1 a3 a4 a5 a6 a9 a10 a13 a14)
    · exact ((Cert.ReferenceIdeal.Read.val_main_v49_eq (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))).trans
        (Cert.ReferenceIdeal.Cell.stabilizer_eq (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14)))).trans
        (Mout_congr a0 a1 a4 a5 a6 a9 a10 a13 a14)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
